-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S_ : Shape := ⟨0, ![]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 17
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4096x1024, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def k1_mult1 : BitVec 32 :=
  let c0_i32 : BitVec 32 := 0#32
  let c512_i32 : BitVec 32 := 512#32
  let v14 : BitVec 32 := Scalar.muli c0_i32 c512_i32
  v14
def k1_off1 (c0_i32 : BitVec 32) : Fin 2 → Nat :=
  let c512_i32 : BitVec 32 := 512#32
  let v14 : BitVec 32 := Scalar.muli c0_i32 c512_i32
  let v15 : BitVec 32 := v14
  let v16 : Index := Scalar.indexCast v15
  let c0_9 : Index := 0#32
  ![v16.toNat, 0]
def k1_mult2 : BitVec 32 :=
  let c1_i32 : BitVec 32 := 1#32
  let c512_i32_27 : BitVec 32 := 512#32
  let v52 : BitVec 32 := Scalar.muli c1_i32 c512_i32_27
  v52
def k1_mult3 : BitVec 32 :=
  let c2_i32 : BitVec 32 := 2#32
  let c512_i32_46 : BitVec 32 := 512#32
  let v90 : BitVec 32 := Scalar.muli c2_i32 c512_i32_46
  v90
def k1_mult4 : BitVec 32 :=
  let c3_i32 : BitVec 32 := 3#32
  let c512_i32_65 : BitVec 32 := 512#32
  let v128 : BitVec 32 := Scalar.muli c3_i32 c512_i32_65
  v128
def k1_mult5 : BitVec 32 :=
  let c4_i32 : BitVec 32 := 4#32
  let c512_i32_84 : BitVec 32 := 512#32
  let v166 : BitVec 32 := Scalar.muli c4_i32 c512_i32_84
  v166
def k1_mult6 : BitVec 32 :=
  let c5_i32 : BitVec 32 := 5#32
  let c512_i32_103 : BitVec 32 := 512#32
  let v204 : BitVec 32 := Scalar.muli c5_i32 c512_i32_103
  v204
def k1_mult7 : BitVec 32 :=
  let c6_i32 : BitVec 32 := 6#32
  let c512_i32_122 : BitVec 32 := 512#32
  let v242 : BitVec 32 := Scalar.muli c6_i32 c512_i32_122
  v242
def k1_mult8 : BitVec 32 :=
  let c7_i32 : BitVec 32 := 7#32
  let c512_i32_141 : BitVec 32 := 512#32
  let v280 : BitVec 32 := Scalar.muli c7_i32 c512_i32_141
  v280
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S1024x1024_S1024x1024_1_0 : S1024x1024.Transposes [1, 0] S1024x1024
  bcast_S_S1024x1024 : S_.BroadcastsInDim S1024x1024 (![] : Fin 0 → Fin S1024x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  k1_mult1_dvd : 512 ∣ k1_mult1.toNat
  k1_off1_inb : ∀ (r : Fin 8), ∀ a, (k1_off1 (BitVec.ofNat 32 r.val)) a + S512x1024.size a ≤ S4096x1024.size a
  k1_mult2_dvd : 512 ∣ k1_mult2.toNat
  k1_mult3_dvd : 512 ∣ k1_mult3.toNat
  k1_mult4_dvd : 512 ∣ k1_mult4.toNat
  k1_mult5_dvd : 512 ∣ k1_mult5.toNat
  k1_mult6_dvd : 512 ∣ k1_mult6.toNat
  k1_mult7_dvd : 512 ∣ k1_mult7.toNat
  k1_mult8_dvd : 512 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KernelRun.lean ====
/-
  The idealized kernel's whole run, with its result named.

  The program is a stretch of host operations (the three weight matrices transposed, the query weights scaled by
  1/32), the projection call and the attention call. Every weakly fair execution terminates without a fault,
  and at the end every unscoped buffer of a core holds the contents of the last segment boundary: the arguments as
  launched, and the result array at what the attention call's write-backs leave, block after block
  (`Dat.arrAt` of the call's proof data at its last grid point). The frame claim keeps only the arguments of this
  final reading; here the result buffer is kept beside them.
-/
import proofs.«179623_j35940286333005_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is the attention call's fourth window's array. -/
theorem arrRef_result : Pipeline.arrRef spec1 3 = main_v9 := rfl

/-- The last boundary's contents at the result buffer: the attention call's output array after its last point. -/
theorem W3_result (c : Dev nD) :
    W3 m ρ c (Proc.devRef .tc main_v9) = (dat1 (V2 m ρ) c).arrAt 3 cfg1.N :=
  W3_arr m ρ c 3

set_option backward.isDefEq.respectTransparency.types false in
/-- Every weakly fair execution of the program terminates, nothing faulting, with the result buffer at the last
    boundary's contents and the four arguments as launched. -/
theorem run_result : θ_run defs (onTc (τ := τ) (main (F := F))) ⟨m, fun _ => 0, ρ⟩ (fun r => ∀ c : Dev nD,
      r.2.mem ((c.tc : Thread nD τ).loc main_v9) = W3 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v9 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Whole

end
-- ==== Proof.AttnVocab.lean ====
/-
  One attention block in closed vocabulary.

  For a block of 512 query rows `q` (each of length 1024) the kernel walks the 4096 key rows and value rows in
  eight blocks of 512. It keeps three arrays: a running row maximum `m` (512 × 1), a running normaliser `l`
  (512 × 1) and a running weighted sum `a` (512 × 1024). For one key block `kb` and value block `vb`:

    scores  s = q · kbᵀ                                   (512 × 512)
    m'      = max m (row maximum of s)
    α       = exp (m − m')
    p       = exp (s − m')            (m' repeated along each row)
    l'      = α · l + row sum of p
    a'      = α · a + p · vb          (α repeated along each row)

  and after the eighth block the result is `a / l` (`l` repeated along each row). The functions below are these
  operations over any float instance, written with the program's own shapes and contraction records.
-/
import proofs.«179623_j35940286333005_2_alg».proof.Proof.Gen.KernelIdeal.Skeleton
import Idealize.ShloMosaic.Lib.Pipeline.FrameBody

noncomputable section

namespace Cert.KernelIdeal.Attn

open Idealize.ShloMosaic Idealize.SL.Sem
open Cert.KernelIdeal Cert.KernelIdeal.Facts₀ Cert.KernelIdeal.Facts

variable {F : FTy → Type} [FloatOps F]

/-- The scores of the query block against one key block: `q · kbᵀ`, contracting the two length-1024 axes. -/
def scoresF (q : FVec F S512x1024 .bf16) (kb : Vec F S512x1024 .bf16) : FVec F S512x512 .f32 :=
  matmul dot_S512x1024_S512x1024_S512x512_1_1_0_0_n_n none q (shapeCast S512x1024 kb shapeCasts_S512x1024_S512x1024)
    (constant S512x512 .f32 0x00000000#32)

/-- The new running maximum: the old one joined with each row's largest score. -/
def maxF (q : FVec F S512x1024 .bf16) (kb : Vec F S512x1024 .bf16) (m : Vec F S512x1 .f32) : FVec F S512x1 .f32 :=
  maximumf m (shapeCast S512x1 (multiReduction .maximumf [1] S512 (scoresF q kb) 0xFF800000#32 reduces_S512x512_S512 (.inl rfl) rfl)
    shapeCasts_S512_S512x1)

/-- The rescaling factor `exp (m − m')`. -/
def alphaF (q : FVec F S512x1024 .bf16) (kb : Vec F S512x1024 .bf16) (m : Vec F S512x1 .f32) : FVec F S512x1 .f32 :=
  exp (subf m (maxF q kb m))

/-- The block's weights `exp (s − m')`. -/
def probF (q : FVec F S512x1024 .bf16) (kb : Vec F S512x1024 .bf16) (m : Vec F S512x1 .f32) : FVec F S512x512 .f32 :=
  exp (subf (scoresF q kb) (broadcastTo S512x512 (maxF q kb m) broadcasts_S512x1_S512x512))

/-- The new running maximum as it is stored. -/
def maxStoreF (q : FVec F S512x1024 .bf16) (kb : Vec F S512x1024 .bf16) (m : Vec F S512x1 .f32) : FVec F S512x1 .f32 :=
  shapeCast S512x1 (maxF q kb m) shapeCasts_S512x1_S512x1

/-- The new normaliser `α · l + row sums of the weights`. -/
def normF (q : FVec F S512x1024 .bf16) (kb : Vec F S512x1024 .bf16) (m l : Vec F S512x1 .f32) : FVec F S512x1 .f32 :=
  shapeCast S512x1
    (addf (mulf (alphaF q kb m) l)
      (shapeCast S512x1 (multiReduction .add [1] S512 (probF q kb m) 0x00000000#32 reduces_S512x512_S512 (.inl rfl) rfl)
        shapeCasts_S512_S512x1))
    shapeCasts_S512x1_S512x1

/-- The new weighted sum `α · a + weights · vb`. -/
def accF (q : FVec F S512x1024 .bf16) (kb vb : Vec F S512x1024 .bf16) (m : Vec F S512x1 .f32) (a : Vec F S512x1024 .f32) :
    FVec F S512x1024 .f32 :=
  shapeCast S512x1024
    (addf (mulf (broadcastTo S512x1024 (alphaF q kb m) broadcasts_S512x1_S512x1024) a)
      (matmul dot_S512x512_S512x1024_S512x1024_1_0_0_1_n_n none (truncf .bf16 (probF q kb m) bitsLt_bf16_f32)
        (shapeCast S512x1024 vb shapeCasts_S512x1024_S512x1024) (constant S512x1024 .f32 0x00000000#32)))
    shapeCasts_S512x1024_S512x1024

/-- One block: the running (maximum, normaliser, weighted sum) after it. -/
def stepF (q : FVec F S512x1024 .bf16) (kb vb : Vec F S512x1024 .bf16)
    (st : Vec F S512x1 .f32 × Vec F S512x1 .f32 × Vec F S512x1024 .f32) :
    Vec F S512x1 .f32 × Vec F S512x1 .f32 × Vec F S512x1024 .f32 :=
  (maxStoreF q kb st.1, normF q kb st.1 st.2.1, accF q kb vb st.1 st.2.2)

/-- The triple before the first block: the finite starting maximum, and nothing summed. -/
def initF : Vec F S512x1 .f32 × Vec F S512x1 .f32 × Vec F S512x1024 .f32 :=
  (shapeCast S512x1 (broadcast S512x1 (Scalar.ofBits (F := F) .f32 0xFF333332#32)) shapeCasts_S512x1_S512x1,
   shapeCast S512x1 (broadcast S512x1 (Scalar.ofBits (F := F) .f32 0x00000000#32)) shapeCasts_S512x1_S512x1,
   shapeCast S512x1024 (broadcast S512x1024 (Scalar.ofBits (F := F) .f32 0x00000000#32)) shapeCasts_S512x1024_S512x1024)

/-- Rows `512 k, …, 512 k + 511` of a 4096-row array fit inside it when `k < 8`. -/
theorem blk_inb (k : ℕ) (hk : k < 8) : ∀ a : Fin 2, (![512 * k, 0] : Fin 2 → ℕ) a + S512x1024.size a ≤ S4096x1024.size a := by
  intro a
  match a with
  | ⟨0, _⟩ => show 512 * k + 512 ≤ 4096; omega
  | ⟨1, _⟩ => show 0 + 1024 ≤ 1024; omega

/-- The `k`-th block of 512 rows of a 4096-row array. -/
def blkF (x : Vec F S4096x1024 .bf16) (k : ℕ) (hk : k < 8) : Vec F S512x1024 .bf16 :=
  View.ld x (Rect.unit (s := S4096x1024) ![512 * k, 0] S512x1024.size (blk_inb k hk))

/-- The running triple after the first `k` blocks of the key rows `x1` and value rows `x2`. -/
def stateF (q : FVec F S512x1024 .bf16) (x1 x2 : Vec F S4096x1024 .bf16) :
    (k : ℕ) → k ≤ 8 → Vec F S512x1 .f32 × Vec F S512x1 .f32 × Vec F S512x1024 .f32
  | 0, _ => initF
  | k + 1, h => stepF q (blkF x1 k h) (blkF x2 k h) (stateF q x1 x2 k (Nat.le_of_succ_le h))

/-- The block's output: the weighted sum over the normaliser after all eight blocks. -/
def finalF (q : FVec F S512x1024 .bf16) (x1 x2 : Vec F S4096x1024 .bf16) : FVec F S512x1024 .f32 :=
  divf (stateF q x1 x2 8 (Nat.le_refl 8)).2.2
    (broadcastTo S512x1024 (stateF q x1 x2 8 (Nat.le_refl 8)).2.1 broadcasts_S512x1_S512x1024)

/-- The query block as the body uses it. -/
def queryF (x0 : Vec F S512x1024 .bf16) : FVec F S512x1024 .bf16 :=
  shapeCast S512x1024 x0 shapeCasts_S512x1024_S512x1024

theorem stateF_succ (q : FVec F S512x1024 .bf16) (x1 x2 : Vec F S4096x1024 .bf16) (k : ℕ) (h : k + 1 ≤ 8) :
    stateF q x1 x2 (k + 1) h = stepF q (blkF x1 k h) (blkF x2 k h) (stateF q x1 x2 k (Nat.le_of_succ_le h)) := rfl

theorem stateF_zero (q : FVec F S512x1024 .bf16) (x1 x2 : Vec F S4096x1024 .bf16) (h : 0 ≤ 8) :
    stateF q x1 x2 0 h = initF := rfl

end Cert.KernelIdeal.Attn

end
-- ==== Proof.LibCoveredLoad.lean ====
/-
  A load of a whole buffer after several stores, the last of which overwrote the whole buffer.

  The library reads a whole-buffer load after ONE whole-buffer store as that store's payload
  (`View.readCov_unit_zero`). An accumulator that is rewritten whole several times in one body and
  read back in between needs the same fact after a list of stores: only the last store matters,
  because it covers every index.
-/
import Idealize.ShloMosaic.Lib.Pipeline.Value

noncomputable section

namespace Cert.LibCoveredLoad

open Idealize.ShloMosaic Idealize.ShloMosaic.View

variable {Val : EltTy → Type} {S : Shape} {e : EltTy}

/-- A load through the whole-shape rectangle at zero offsets, after a list of stores (last first) whose
    last one went through that same rectangle, reads that last store's payload, whatever the earlier
    stores were: the last store covers every index. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons.mpr (Or.inl rfl), mem_set_unit_zero rfl inb y⟩),
    canon_cons_unit_zero rfl, ld_unit_zero rfl]

end Cert.LibCoveredLoad

end
-- ==== Proof.AttnFound.lean ====
/-
  What the attention body leaves in its output block is the closed vocabulary's block output.

  The body's run records its stores to the three scratch arrays as lists (last store first) and each later load of
  a scratch array as a covered load of the list so far. Every store overwrites its whole array, so each covered load
  reads the last store's value. Walking the eight blocks in order — the running maximum, normaliser and weighted sum
  loaded at block k are the triple after k − 1 blocks — each store's value is one step of the closed vocabulary applied to the
  previous triple, and the one store to the output block is the final quotient.
-/
import proofs.«179623_j35940286333005_2_alg».proof.Proof.Gen.KernelIdeal.Frame
import proofs.«179623_j35940286333005_2_alg».proof.Proof.AttnVocab
import proofs.«179623_j35940286333005_2_alg».proof.Proof.LibCoveredLoad

set_option maxRecDepth 16384

noncomputable section

namespace Cert.KernelIdeal.Attn

open Idealize.ShloMosaic Idealize.ShloMosaic.TcCoe Idealize.ShloMosaic.Tactic
open Idealize.SL Idealize.SL.Sem
open Cert.KernelIdeal Cert.KernelIdeal.Gen Cert.KernelIdeal.Facts₀ Cert.KernelIdeal.Facts

variable {F : FTy → Type} [FloatOps F]

theorem hz2 : (![0, 0] : Fin 2 → Nat) = fun _ => 0 := funext fun a => by fin_cases a <;> rfl

set_option maxHeartbeats 1600000 in
/-- The output block after the body, from the query block and the whole key and value arrays: the closed vocabulary's
    final quotient after the eight blocks. -/
theorem out_eq_finalF (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole)
    (x0 : Vec F S512x1024 .bf16) (x1 : Vec F S4096x1024 .bf16) (x2 : Vec F S4096x1024 .bf16) :
    out1_A_3 (F := F) c i arg1 harg1 arg2 harg2 arg3 harg3 arg4 harg4 arg5 harg5 arg6 harg6 arg7 harg7 x0 x1 x2 = finalF (queryF x0) x1 x2 := by
  have eM0 : kernelRun1_A.sl.v23 (F := F) c arg5 = (stateF (queryF x0) x1 x2 0 (by decide)).1 := by
    unfold kernelRun1_A.sl.v23 kernelRun1_A.sl.HS0_1
    rw [View.readCov_unit_zero _ hz2]; rfl
  have eL0 : kernelRun1_A.sl.v32 (F := F) c arg6 = (stateF (queryF x0) x1 x2 0 (by decide)).2.1 := by
    unfold kernelRun1_A.sl.v32 kernelRun1_A.sl.HS1_1
    rw [View.readCov_unit_zero _ hz2]; rfl
  have eA0 : kernelRun1_A.sl.v40 (F := F) c arg7 = (stateF (queryF x0) x1 x2 0 (by decide)).2.2 := by
    unfold kernelRun1_A.sl.v40 kernelRun1_A.sl.HS2_1
    rw [View.readCov_unit_zero _ hz2]; rfl
  have eM1 : kernelRun1_A.sl.v61 (F := F) c arg1 harg1 arg2 harg2 arg5 x0 x1 = (stateF (queryF x0) x1 x2 1 (by decide)).1 := by
    unfold kernelRun1_A.sl.v61 kernelRun1_A.sl.HS0_2
    rw [Cert.LibCoveredLoad.readCov_cons_unit_zero _ hz2]
    simp only [kernelRun1_A.sl.r_1, kernelRun1_A.sl.r_2, kernelRun1_A.sl.r_3, kernelRun1_A.sl.r_4, kernelRun1_A.sl.r_5, View.readAt_eq_ld, harg1.read_unread, harg2.read_unread, harg3.read_unread, View.ld_unit_zero (S := S512x1024) hz2]
    rw [eM0]; rfl
  have eL1 : kernelRun1_A.sl.v70 (F := F) c arg1 harg1 arg2 harg2 arg5 arg6 x0 x1 = (stateF (queryF x0) x1 x2 1 (by decide)).2.1 := by
    unfold kernelRun1_A.sl.v70 kernelRun1_A.sl.HS1_2
    rw [Cert.LibCoveredLoad.readCov_cons_unit_zero _ hz2]
    simp only [kernelRun1_A.sl.r_1, kernelRun1_A.sl.r_2, kernelRun1_A.sl.r_3, kernelRun1_A.sl.r_4, kernelRun1_A.sl.r_5, View.readAt_eq_ld, harg1.read_unread, harg2.read_unread, harg3.read_unread, View.ld_unit_zero (S := S512x1024) hz2]
    rw [eM0, eL0]; rfl
  have eA1 : kernelRun1_A.sl.v78 (F := F) c arg1 harg1 arg2 harg2 arg3 harg3 arg5 arg7 x0 x1 x2 = (stateF (queryF x0) x1 x2 1 (by decide)).2.2 := by
    unfold kernelRun1_A.sl.v78 kernelRun1_A.sl.HS2_2
    rw [Cert.LibCoveredLoad.readCov_cons_unit_zero _ hz2]
    simp only [kernelRun1_A.sl.r_1, kernelRun1_A.sl.r_2, kernelRun1_A.sl.r_3, kernelRun1_A.sl.r_4, kernelRun1_A.sl.r_5, View.readAt_eq_ld, harg1.read_unread, harg2.read_unread, harg3.read_unread, View.ld_unit_zero (S := S512x1024) hz2]
    rw [eM0, eA0]; rfl
  have eM2 : kernelRun1_A.sl.v99 (F := F) c arg1 harg1 arg2 harg2 arg5 x0 x1 = (stateF (queryF x0) x1 x2 2 (by decide)).1 := by
    unfold kernelRun1_A.sl.v99 kernelRun1_A.sl.HS0_3
    rw [Cert.LibCoveredLoad.readCov_cons_unit_zero _ hz2]
    simp only [kernelRun1_A.sl.r_6, kernelRun1_A.sl.r_7, kernelRun1_A.sl.r_8, kernelRun1_A.sl.r_9, kernelRun1_A.sl.r_10, kernelRun1_A.sl.r, View.readAt_eq_ld, harg1.read_unread, harg2.read_unread, harg3.read_unread, View.ld_unit_zero (S := S512x1024) hz2]
    rw [eM1]; rfl
  have eL2 : kernelRun1_A.sl.v108 (F := F) c arg1 harg1 arg2 harg2 arg5 arg6 x0 x1 = (stateF (queryF x0) x1 x2 2 (by decide)).2.1 := by
    unfold kernelRun1_A.sl.v108 kernelRun1_A.sl.HS1_3
    rw [Cert.LibCoveredLoad.readCov_cons_unit_zero _ hz2]
    simp only [kernelRun1_A.sl.r_6, kernelRun1_A.sl.r_7, kernelRun1_A.sl.r_8, kernelRun1_A.sl.r_9, kernelRun1_A.sl.r_10, kernelRun1_A.sl.r, View.readAt_eq_ld, harg1.read_unread, harg2.read_unread, harg3.read_unread, View.ld_unit_zero (S := S512x1024) hz2]
    rw [eM1, eL1]; rfl
  have eA2 : kernelRun1_A.sl.v116 (F := F) c arg1 harg1 arg2 harg2 arg3 harg3 arg5 arg7 x0 x1 x2 = (stateF (queryF x0) x1 x2 2 (by decide)).2.2 := by
    unfold kernelRun1_A.sl.v116 kernelRun1_A.sl.HS2_3
    rw [Cert.LibCoveredLoad.readCov_cons_unit_zero _ hz2]
    simp only [kernelRun1_A.sl.r_6, kernelRun1_A.sl.r_7, kernelRun1_A.sl.r_8, kernelRun1_A.sl.r_9, kernelRun1_A.sl.r_10, kernelRun1_A.sl.r, View.readAt_eq_ld, harg1.read_unread, harg2.read_unread, harg3.read_unread, View.ld_unit_zero (S := S512x1024) hz2]
    rw [eM1, eA1]; rfl
  have eM3 : kernelRun1_A.sl.v137 (F := F) c arg1 harg1 arg2 harg2 arg5 x0 x1 = (stateF (queryF x0) x1 x2 3 (by decide)).1 := by
    unfold kernelRun1_A.sl.v137 kernelRun1_A.sl.HS0_4
    rw [Cert.LibCoveredLoad.readCov_cons_unit_zero _ hz2]
    simp only [kernelRun1_A.sl.r_11, kernelRun1_A.sl.r_12, kernelRun1_A.sl.r_13, kernelRun1_A.sl.r_14, kernelRun1_A.sl.r, View.readAt_eq_ld, harg1.read_unread, harg2.read_unread, harg3.read_unread, View.ld_unit_zero (S := S512x1024) hz2]
    rw [eM2]; rfl
  have eL3 : kernelRun1_A.sl.v146 (F := F) c arg1 harg1 arg2 harg2 arg5 arg6 x0 x1 = (stateF (queryF x0) x1 x2 3 (by decide)).2.1 := by
    unfold kernelRun1_A.sl.v146 kernelRun1_A.sl.HS1_4
    rw [Cert.LibCoveredLoad.readCov_cons_unit_zero _ hz2]
    simp only [kernelRun1_A.sl.r_11, kernelRun1_A.sl.r_12, kernelRun1_A.sl.r_13, kernelRun1_A.sl.r_14, kernelRun1_A.sl.r, View.readAt_eq_ld, harg1.read_unread, harg2.read_unread, harg3.read_unread, View.ld_unit_zero (S := S512x1024) hz2]
    rw [eM2, eL2]; rfl
  have eA3 : kernelRun1_A.sl.v154 (F := F) c arg1 harg1 arg2 harg2 arg3 harg3 arg5 arg7 x0 x1 x2 = (stateF (queryF x0) x1 x2 3 (by decide)).2.2 := by
    unfold kernelRun1_A.sl.v154 kernelRun1_A.sl.HS2_4
    rw [Cert.LibCoveredLoad.readCov_cons_unit_zero _ hz2]
    simp only [kernelRun1_A.sl.r_11, kernelRun1_A.sl.r_12, kernelRun1_A.sl.r_13, kernelRun1_A.sl.r_14, kernelRun1_A.sl.r, View.readAt_eq_ld, harg1.read_unread, harg2.read_unread, harg3.read_unread, View.ld_unit_zero (S := S512x1024) hz2]
    rw [eM2, eA2]; rfl
  have eM4 : kernelRun1_A.sl.v175 (F := F) c arg1 harg1 arg2 harg2 arg5 x0 x1 = (stateF (queryF x0) x1 x2 4 (by decide)).1 := by
    unfold kernelRun1_A.sl.v175 kernelRun1_A.sl.HS0_5
    rw [Cert.LibCoveredLoad.readCov_cons_unit_zero _ hz2]
    simp only [kernelRun1_A.sl.r_15, kernelRun1_A.sl.r_16, kernelRun1_A.sl.r_17, kernelRun1_A.sl.r_18, kernelRun1_A.sl.r, View.readAt_eq_ld, harg1.read_unread, harg2.read_unread, harg3.read_unread, View.ld_unit_zero (S := S512x1024) hz2]
    rw [eM3]; rfl
  have eL4 : kernelRun1_A.sl.v184 (F := F) c arg1 harg1 arg2 harg2 arg5 arg6 x0 x1 = (stateF (queryF x0) x1 x2 4 (by decide)).2.1 := by
    unfold kernelRun1_A.sl.v184 kernelRun1_A.sl.HS1_5
    rw [Cert.LibCoveredLoad.readCov_cons_unit_zero _ hz2]
    simp only [kernelRun1_A.sl.r_15, kernelRun1_A.sl.r_16, kernelRun1_A.sl.r_17, kernelRun1_A.sl.r_18, kernelRun1_A.sl.r, View.readAt_eq_ld, harg1.read_unread, harg2.read_unread, harg3.read_unread, View.ld_unit_zero (S := S512x1024) hz2]
    rw [eM3, eL3]; rfl
  have eA4 : kernelRun1_A.sl.v192 (F := F) c arg1 harg1 arg2 harg2 arg3 harg3 arg5 arg7 x0 x1 x2 = (stateF (queryF x0) x1 x2 4 (by decide)).2.2 := by
    unfold kernelRun1_A.sl.v192 kernelRun1_A.sl.HS2_5
    rw [Cert.LibCoveredLoad.readCov_cons_unit_zero _ hz2]
    simp only [kernelRun1_A.sl.r_15, kernelRun1_A.sl.r_16, kernelRun1_A.sl.r_17, kernelRun1_A.sl.r_18, kernelRun1_A.sl.r, View.readAt_eq_ld, harg1.read_unread, harg2.read_unread, harg3.read_unread, View.ld_unit_zero (S := S512x1024) hz2]
    rw [eM3, eA3]; rfl
  have eM5 : kernelRun1_A.sl.v213 (F := F) c arg1 harg1 arg2 harg2 arg5 x0 x1 = (stateF (queryF x0) x1 x2 5 (by decide)).1 := by
    unfold kernelRun1_A.sl.v213 kernelRun1_A.sl.HS0_6
    rw [Cert.LibCoveredLoad.readCov_cons_unit_zero _ hz2]
    simp only [kernelRun1_A.sl.r_19, kernelRun1_A.sl.r_20, kernelRun1_A.sl.r_21, kernelRun1_A.sl.r_22, kernelRun1_A.sl.r, View.readAt_eq_ld, harg1.read_unread, harg2.read_unread, harg3.read_unread, View.ld_unit_zero (S := S512x1024) hz2]
    rw [eM4]; rfl
  have eL5 : kernelRun1_A.sl.v222 (F := F) c arg1 harg1 arg2 harg2 arg5 arg6 x0 x1 = (stateF (queryF x0) x1 x2 5 (by decide)).2.1 := by
    unfold kernelRun1_A.sl.v222 kernelRun1_A.sl.HS1_6
    rw [Cert.LibCoveredLoad.readCov_cons_unit_zero _ hz2]
    simp only [kernelRun1_A.sl.r_19, kernelRun1_A.sl.r_20, kernelRun1_A.sl.r_21, kernelRun1_A.sl.r_22, kernelRun1_A.sl.r, View.readAt_eq_ld, harg1.read_unread, harg2.read_unread, harg3.read_unread, View.ld_unit_zero (S := S512x1024) hz2]
    rw [eM4, eL4]; rfl
  have eA5 : kernelRun1_A.sl.v230 (F := F) c arg1 harg1 arg2 harg2 arg3 harg3 arg5 arg7 x0 x1 x2 = (stateF (queryF x0) x1 x2 5 (by decide)).2.2 := by
    unfold kernelRun1_A.sl.v230 kernelRun1_A.sl.HS2_6
    rw [Cert.LibCoveredLoad.readCov_cons_unit_zero _ hz2]
    simp only [kernelRun1_A.sl.r_19, kernelRun1_A.sl.r_20, kernelRun1_A.sl.r_21, kernelRun1_A.sl.r_22, kernelRun1_A.sl.r, View.readAt_eq_ld, harg1.read_unread, harg2.read_unread, harg3.read_unread, View.ld_unit_zero (S := S512x1024) hz2]
    rw [eM4, eA4]; rfl
  have eM6 : kernelRun1_A.sl.v251 (F := F) c arg1 harg1 arg2 harg2 arg5 x0 x1 = (stateF (queryF x0) x1 x2 6 (by decide)).1 := by
    unfold kernelRun1_A.sl.v251 kernelRun1_A.sl.HS0_7
    rw [Cert.LibCoveredLoad.readCov_cons_unit_zero _ hz2]
    simp only [kernelRun1_A.sl.r_23, kernelRun1_A.sl.r_24, kernelRun1_A.sl.r_25, kernelRun1_A.sl.r_26, kernelRun1_A.sl.r, View.readAt_eq_ld, harg1.read_unread, harg2.read_unread, harg3.read_unread, View.ld_unit_zero (S := S512x1024) hz2]
    rw [eM5]; rfl
  have eL6 : kernelRun1_A.sl.v260 (F := F) c arg1 harg1 arg2 harg2 arg5 arg6 x0 x1 = (stateF (queryF x0) x1 x2 6 (by decide)).2.1 := by
    unfold kernelRun1_A.sl.v260 kernelRun1_A.sl.HS1_7
    rw [Cert.LibCoveredLoad.readCov_cons_unit_zero _ hz2]
    simp only [kernelRun1_A.sl.r_23, kernelRun1_A.sl.r_24, kernelRun1_A.sl.r_25, kernelRun1_A.sl.r_26, kernelRun1_A.sl.r, View.readAt_eq_ld, harg1.read_unread, harg2.read_unread, harg3.read_unread, View.ld_unit_zero (S := S512x1024) hz2]
    rw [eM5, eL5]; rfl
  have eA6 : kernelRun1_A.sl.v268 (F := F) c arg1 harg1 arg2 harg2 arg3 harg3 arg5 arg7 x0 x1 x2 = (stateF (queryF x0) x1 x2 6 (by decide)).2.2 := by
    unfold kernelRun1_A.sl.v268 kernelRun1_A.sl.HS2_7
    rw [Cert.LibCoveredLoad.readCov_cons_unit_zero _ hz2]
    simp only [kernelRun1_A.sl.r_23, kernelRun1_A.sl.r_24, kernelRun1_A.sl.r_25, kernelRun1_A.sl.r_26, kernelRun1_A.sl.r, View.readAt_eq_ld, harg1.read_unread, harg2.read_unread, harg3.read_unread, View.ld_unit_zero (S := S512x1024) hz2]
    rw [eM5, eA5]; rfl
  have eM7 : kernelRun1_A.sl.v289 (F := F) c arg1 harg1 arg2 harg2 arg5 x0 x1 = (stateF (queryF x0) x1 x2 7 (by decide)).1 := by
    unfold kernelRun1_A.sl.v289 kernelRun1_A.sl.HS0_8
    rw [Cert.LibCoveredLoad.readCov_cons_unit_zero _ hz2]
    simp only [kernelRun1_A.sl.r_27, kernelRun1_A.sl.r_28, kernelRun1_A.sl.r_29, kernelRun1_A.sl.r_30, kernelRun1_A.sl.r, View.readAt_eq_ld, harg1.read_unread, harg2.read_unread, harg3.read_unread, View.ld_unit_zero (S := S512x1024) hz2]
    rw [eM6]; rfl
  have eL7 : kernelRun1_A.sl.v298 (F := F) c arg1 harg1 arg2 harg2 arg5 arg6 x0 x1 = (stateF (queryF x0) x1 x2 7 (by decide)).2.1 := by
    unfold kernelRun1_A.sl.v298 kernelRun1_A.sl.HS1_8
    rw [Cert.LibCoveredLoad.readCov_cons_unit_zero _ hz2]
    simp only [kernelRun1_A.sl.r_27, kernelRun1_A.sl.r_28, kernelRun1_A.sl.r_29, kernelRun1_A.sl.r_30, kernelRun1_A.sl.r, View.readAt_eq_ld, harg1.read_unread, harg2.read_unread, harg3.read_unread, View.ld_unit_zero (S := S512x1024) hz2]
    rw [eM6, eL6]; rfl
  have eA7 : kernelRun1_A.sl.v306 (F := F) c arg1 harg1 arg2 harg2 arg3 harg3 arg5 arg7 x0 x1 x2 = (stateF (queryF x0) x1 x2 7 (by decide)).2.2 := by
    unfold kernelRun1_A.sl.v306 kernelRun1_A.sl.HS2_8
    rw [Cert.LibCoveredLoad.readCov_cons_unit_zero _ hz2]
    simp only [kernelRun1_A.sl.r_27, kernelRun1_A.sl.r_28, kernelRun1_A.sl.r_29, kernelRun1_A.sl.r_30, kernelRun1_A.sl.r, View.readAt_eq_ld, harg1.read_unread, harg2.read_unread, harg3.read_unread, View.ld_unit_zero (S := S512x1024) hz2]
    rw [eM6, eA6]; rfl
  have eL8 : kernelRun1_A.sl.v319 (F := F) c arg1 harg1 arg2 harg2 arg5 arg6 x0 x1 = (stateF (queryF x0) x1 x2 8 (by decide)).2.1 := by
    unfold kernelRun1_A.sl.v319 kernelRun1_A.sl.HS1_9
    rw [Cert.LibCoveredLoad.readCov_cons_unit_zero _ hz2]
    simp only [kernelRun1_A.sl.r_31, kernelRun1_A.sl.r_32, kernelRun1_A.sl.r_34, kernelRun1_A.sl.r_35, kernelRun1_A.sl.r, View.readAt_eq_ld, harg1.read_unread, harg2.read_unread, harg3.read_unread, View.ld_unit_zero (S := S512x1024) hz2]
    rw [eM7, eL7]; rfl
  have eA8 : kernelRun1_A.sl.v318 (F := F) c arg1 harg1 arg2 harg2 arg3 harg3 arg5 arg7 x0 x1 x2 = (stateF (queryF x0) x1 x2 8 (by decide)).2.2 := by
    unfold kernelRun1_A.sl.v318 kernelRun1_A.sl.HS2_9
    rw [Cert.LibCoveredLoad.readCov_cons_unit_zero _ hz2]
    simp only [kernelRun1_A.sl.r_31, kernelRun1_A.sl.r_32, kernelRun1_A.sl.r_34, kernelRun1_A.sl.r_35, kernelRun1_A.sl.r, View.readAt_eq_ld, harg1.read_unread, harg2.read_unread, harg3.read_unread, View.ld_unit_zero (S := S512x1024) hz2]
    rw [eM7, eA7]; rfl
  unfold out1_A_3
  rw [View.read_writes_eq_canon _ _ _ (cover1_A_3 c i arg1 harg1 arg2 harg2 arg3 harg3 arg4 harg4 arg5 harg5 arg6 harg6 arg7 harg7 x0 x1 x2)]
  unfold kernelRun1_A
  dsimp only
  rw [View.canon_unit_zero hz2, eA8, eL8]
  rfl

end Cert.KernelIdeal.Attn

end
-- ==== Proof.OnlineSoftmax.lean ====
/-
  Softmax-weighted averages, two ways, on the extended reals.

  A row of attention is a weighted average of value entries `v j` with weights `exp (z j) / ∑ exp (z j')`.
  The direct form (`refRow`) shifts every score by the row's maximum before exponentiating and divides each
  weight by the normaliser. The blockwise form (`onlineRow`) walks the scores block by block carrying a running
  maximum `m`, a running normaliser `l` and a running weighted sum `a`, rescaling `l` and `a` by
  `exp (m_old - m_new)` whenever the maximum grows, and divides once at the end. On finite scores and values
  both are the real number `(∑ exp z · v) / (∑ exp z)`: a common shift of all scores cancels between the
  numerator and the denominator, and the blockwise triple keeps, after each block, the sums over the blocks
  seen so far shifted by the current running maximum — whatever finite value the running maximum started from.
-/
import Mathlib
import Idealize.ShloMosaic.PureOps.Ideal

noncomputable section

open scoped BigOperators

namespace Cert.OnlineSoftmax

open Idealize.ShloMosaic

/-- A finite sum of reals, read in the extended reals, is the sum of the summands read there. -/
theorem coe_sum {ι : Type*} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- The larger of two reals, read in the extended reals, is the larger of the two read there (the reading is monotone). -/
theorem coe_max (a b : ℝ) : ((max a b : ℝ) : EReal) = max (a : EReal) (b : EReal) :=
  EReal.coe_strictMono.monotone.map_max

/-- The maximum of finitely many finite scores, folded from `⊥`, is finite as soon as there is one score:
    `max x ⊥ = x`, and the maximum of two reals is a real. -/
theorem fold_max_coe {ι : Type*} (t : Finset ι) (ht : t.Nonempty) (f : ι → ℝ) :
    ∃ r : ℝ, t.fold max ⊥ (fun j => (f j : EReal)) = (r : EReal) := by
  classical
  induction t using Finset.induction_on with
  | empty => exact absurd ht Finset.not_nonempty_empty
  | insert a s ha ih =>
    rcases s.eq_empty_or_nonempty with hs | hs
    · subst hs
      exact ⟨f a, by rw [Finset.fold_insert ha, Finset.fold_empty, max_bot_right]⟩
    · obtain ⟨r, hr⟩ := ih hs
      exact ⟨max (f a) r, by rw [Finset.fold_insert ha, hr, coe_max]⟩

/-- A common shift `m` of all scores cancels between the weighted sum and the normaliser:
    `exp (z - m) = exp z · exp (-m)`, and the nonzero factor `exp (-m)` divides out. -/
theorem shift_cancel {ι : Type*} (t : Finset ι) (z v : ι → ℝ) (m : ℝ) :
    (∑ j ∈ t, Real.exp (z j - m) * v j) / (∑ j ∈ t, Real.exp (z j - m))
      = (∑ j ∈ t, Real.exp (z j) * v j) / (∑ j ∈ t, Real.exp (z j)) := by
  have h1 : ∀ j, Real.exp (z j - m) = Real.exp (-m) * Real.exp (z j) := by
    intro j
    rw [← Real.exp_add]
    congr 1
    ring
  have hnum : (∑ j ∈ t, Real.exp (z j - m) * v j) = Real.exp (-m) * ∑ j ∈ t, Real.exp (z j) * v j := by
    rw [Finset.mul_sum]
    refine Finset.sum_congr rfl fun j _ => ?_
    rw [h1 j, mul_assoc]
  have hden : (∑ j ∈ t, Real.exp (z j - m)) = Real.exp (-m) * ∑ j ∈ t, Real.exp (z j) := by
    rw [Finset.mul_sum]
    exact Finset.sum_congr rfl fun j _ => h1 j
  rw [hnum, hden, mul_div_mul_left _ _ (Real.exp_pos (-m)).ne']

/-- The direct form: scores shifted by their maximum (the fold of `max` from `⊥`, joined with `⊥` once more),
    exponentiated, each divided by the normaliser `0 + ∑ exp`, and summed against the values. -/
def refRow {N : ℕ} (z v : Fin N → EReal) : EReal :=
  ∑ j, Ideal.div (Ideal.exp (z j - max ⊥ (Finset.univ.fold max ⊥ z)))
        (0 + ∑ j', Ideal.exp (z j' - max ⊥ (Finset.univ.fold max ⊥ z))) * v j

/-- One block of the blockwise form: from the running (maximum, normaliser, weighted sum) to the next. -/
def step {n : ℕ} (s v : Fin n → EReal) (st : EReal × EReal × EReal) : EReal × EReal × EReal :=
  (max st.1 (Finset.univ.fold max ⊥ s),
   Ideal.exp (st.1 - max st.1 (Finset.univ.fold max ⊥ s)) * st.2.1
     + ∑ j, Ideal.exp (s j - max st.1 (Finset.univ.fold max ⊥ s)),
   Ideal.exp (st.1 - max st.1 (Finset.univ.fold max ⊥ s)) * st.2.2
     + ∑ j, Ideal.exp (s j - max st.1 (Finset.univ.fold max ⊥ s)) * v j)

/-- The running triple after the blocks `0, …, b - 1`, started at the maximum `m0` with nothing summed. -/
def run {n : ℕ} (m0 : EReal) (s v : ℕ → Fin n → EReal) : ℕ → EReal × EReal × EReal
  | 0 => (m0, 0, 0)
  | b + 1 => step (s b) (v b) (run m0 s v b)

/-- One block on finite data: the new maximum `m'` is finite, and the old normaliser `l` and weighted sum `a`
    are rescaled by `exp (m - m')` before the block's own sums, shifted by `m'`, are added. -/
theorem step_coe {n : ℕ} (hn : 0 < n) (s v : Fin n → ℝ) (m l a : ℝ) :
    ∃ m' : ℝ, step (fun j => (s j : EReal)) (fun j => (v j : EReal)) ((m : EReal), (l : EReal), (a : EReal))
      = ((m' : EReal), ((Real.exp (m - m') * l + ∑ j, Real.exp (s j - m') : ℝ) : EReal),
         ((Real.exp (m - m') * a + ∑ j, Real.exp (s j - m') * v j : ℝ) : EReal)) := by
  haveI : Nonempty (Fin n) := ⟨⟨0, hn⟩⟩
  obtain ⟨mb, hmb⟩ := fold_max_coe (Finset.univ : Finset (Fin n)) Finset.univ_nonempty s
  refine ⟨max m mb, ?_⟩
  unfold step
  simp only [hmb, ← coe_max, ← EReal.coe_sub, Ideal.exp_coe, ← EReal.coe_mul, ← coe_sum,
    ← EReal.coe_add]

/-- The invariant of the blockwise form on finite data: after the blocks `0, …, b - 1` the running maximum is
    some real `m`, and the running normaliser and weighted sum are the sums over those blocks of `exp (s - m)`
    and of `exp (s - m) · v`. A step rescales by `exp (m - m')`, and `exp (m - m') · exp (x - m) = exp (x - m')`. -/
theorem run_coe {n : ℕ} (hn : 0 < n) (m0 : ℝ) (s v : ℕ → Fin n → ℝ) (b : ℕ) :
    ∃ m : ℝ, run (m0 : EReal) (fun b j => (s b j : EReal)) (fun b j => (v b j : EReal)) b
      = ((m : EReal), ((∑ b' ∈ Finset.range b, ∑ j, Real.exp (s b' j - m) : ℝ) : EReal),
         ((∑ b' ∈ Finset.range b, ∑ j, Real.exp (s b' j - m) * v b' j : ℝ) : EReal)) := by
  induction b with
  | zero => exact ⟨m0, by simp [run]⟩
  | succ b ih =>
    obtain ⟨m, hm⟩ := ih
    obtain ⟨m', hm'⟩ := step_coe hn (s b) (v b) m
      (∑ b' ∈ Finset.range b, ∑ j, Real.exp (s b' j - m))
      (∑ b' ∈ Finset.range b, ∑ j, Real.exp (s b' j - m) * v b' j)
    refine ⟨m', ?_⟩
    have hrun : run (m0 : EReal) (fun b j => (s b j : EReal)) (fun b j => (v b j : EReal)) (b + 1)
        = step (fun j => (s b j : EReal)) (fun j => (v b j : EReal))
            (run (m0 : EReal) (fun b j => (s b j : EReal)) (fun b j => (v b j : EReal)) b) := rfl
    rw [hrun, hm, hm']
    have hl : Real.exp (m - m') * (∑ b' ∈ Finset.range b, ∑ j, Real.exp (s b' j - m))
          + ∑ j, Real.exp (s b j - m')
        = ∑ b' ∈ Finset.range (b + 1), ∑ j, Real.exp (s b' j - m') := by
      rw [Finset.sum_range_succ, Finset.mul_sum]
      congr 1
      refine Finset.sum_congr rfl fun b' _ => ?_
      rw [Finset.mul_sum]
      refine Finset.sum_congr rfl fun j _ => ?_
      rw [← Real.exp_add]
      congr 1
      ring
    have ha : Real.exp (m - m') * (∑ b' ∈ Finset.range b, ∑ j, Real.exp (s b' j - m) * v b' j)
          + ∑ j, Real.exp (s b j - m') * v b j
        = ∑ b' ∈ Finset.range (b + 1), ∑ j, Real.exp (s b' j - m') * v b' j := by
      rw [Finset.sum_range_succ, Finset.mul_sum]
      congr 1
      refine Finset.sum_congr rfl fun b' _ => ?_
      rw [Finset.mul_sum]
      refine Finset.sum_congr rfl fun j _ => ?_
      rw [← mul_assoc, ← Real.exp_add]
      congr 2
      ring
    rw [hl, ha]

/-- The blockwise form: the weighted sum over the normaliser after `B` blocks. -/
def onlineRow {n : ℕ} (m0 : EReal) (s v : ℕ → Fin n → EReal) (B : ℕ) : EReal :=
  Ideal.div (run m0 s v B).2.2 (run m0 s v B).2.1

/-- On finite scores and values the direct form is the real weighted average. -/
theorem refRow_coe {N : ℕ} (hN : 0 < N) (z v : Fin N → ℝ) :
    refRow (fun j => (z j : EReal)) (fun j => (v j : EReal))
      = (((∑ j, Real.exp (z j) * v j) / (∑ j, Real.exp (z j)) : ℝ) : EReal) := by
  haveI : Nonempty (Fin N) := ⟨⟨0, hN⟩⟩
  obtain ⟨mx, hmx⟩ := fold_max_coe (Finset.univ : Finset (Fin N)) Finset.univ_nonempty z
  -- the normaliser, shifted by the maximum, is a positive real
  have hL : 0 < ∑ j, Real.exp (z j - mx) :=
    Finset.sum_pos (fun j _ => Real.exp_pos _) Finset.univ_nonempty
  unfold refRow
  simp only [hmx, max_bot_left, ← EReal.coe_sub, Ideal.exp_coe, ← coe_sum, zero_add]
  simp only [Ideal.div_coe hL.ne', ← EReal.coe_mul, ← coe_sum]
  rw [EReal.coe_eq_coe_iff, ← shift_cancel Finset.univ z v mx, Finset.sum_div]
  refine Finset.sum_congr rfl fun j _ => ?_
  rw [mul_one_div, div_mul_eq_mul_div]

/-- On finite scores and values, from any finite starting maximum, the blockwise form over `B` nonempty blocks
    is the real weighted average over all their entries. -/
theorem onlineRow_coe {n : ℕ} (hn : 0 < n) (m0 : ℝ) (s v : ℕ → Fin n → ℝ) (B : ℕ) (hB : 0 < B) :
    onlineRow (m0 : EReal) (fun b j => (s b j : EReal)) (fun b j => (v b j : EReal)) B
      = (((∑ b ∈ Finset.range B, ∑ j, Real.exp (s b j) * v b j)
          / (∑ b ∈ Finset.range B, ∑ j, Real.exp (s b j)) : ℝ) : EReal) := by
  haveI : Nonempty (Fin n) := ⟨⟨0, hn⟩⟩
  obtain ⟨m, hm⟩ := run_coe hn m0 s v B
  -- the running normaliser after at least one nonempty block is a positive real
  have hL : 0 < ∑ b ∈ Finset.range B, ∑ j, Real.exp (s b j - m) :=
    Finset.sum_pos (fun b _ => Finset.sum_pos (fun j _ => Real.exp_pos _) Finset.univ_nonempty)
      (Finset.nonempty_range_iff.mpr hB.ne')
  unfold onlineRow
  rw [hm]
  simp only [Ideal.div_coe hL.ne', ← EReal.coe_mul]
  rw [EReal.coe_eq_coe_iff, mul_one_div]
  have h := shift_cancel (Finset.range B ×ˢ (Finset.univ : Finset (Fin n)))
    (fun x => s x.1 x.2) (fun x => v x.1 x.2) m
  simp only [Finset.sum_product] at h
  exact h

/-! ## The attention this certificate is about, over the reals -/

/-- A projection `x · wᵀ`: entry `(p, d)` is the sum over `i` of `x p i * w d i`. -/
def proj (x : Fin 4096 → Fin 1024 → ℝ) (w : Fin 1024 → Fin 1024 → ℝ) (p : Fin 4096) (d : Fin 1024) : ℝ :=
  ∑ i, x p i * w d i

/-- The score of query row `p` against key row `j`: the inner product of their projections over `32 = √1024`. -/
def score (x : Fin 4096 → Fin 1024 → ℝ) (wq wk : Fin 1024 → Fin 1024 → ℝ) (p j : Fin 4096) : ℝ :=
  (∑ d, proj x wq p d * proj x wk j d) / 32

/-- Entry `(p, o)` of the attention output: the value projections averaged with the softmax weights of row `p`. -/
def attn (x : Fin 4096 → Fin 1024 → ℝ) (wq wk wv : Fin 1024 → Fin 1024 → ℝ) (p : Fin 4096) (o : Fin 1024) : ℝ :=
  (∑ j, Real.exp (score x wq wk p j) * proj x wv j o) / (∑ j, Real.exp (score x wq wk p j))

/-- The score with the factor `1/32` folded into the query weights first (each `wq d i` scaled before projecting)
    is the score with the inner product divided by `32` afterwards. -/
theorem score_scaled (x : Fin 4096 → Fin 1024 → ℝ) (wq wk : Fin 1024 → Fin 1024 → ℝ) (p j : Fin 4096) :
    (∑ d, (∑ i, x p i * (wq d i * (1 / 32))) * proj x wk j d) = score x wq wk p j := by
  unfold score
  rw [Finset.sum_div]
  refine Finset.sum_congr rfl fun d _ => ?_
  have h : (∑ i, x p i * (wq d i * (1 / 32))) = proj x wq p d / 32 := by
    unfold proj
    rw [Finset.sum_div]
    refine Finset.sum_congr rfl fun i _ => ?_
    ring
  rw [h]
  ring

end Cert.OnlineSoftmax

end
-- ==== Proof.RowAt.lean ====
/-
  Rows of a 4096-row array in eight blocks of 512: block `b`'s `j`-th row is row `512 b + j`. The row number is kept
  below 4096 by a remainder, so that it is a row for every natural number `b` (for `b < 8` the remainder does nothing).
-/
import Mathlib

namespace Cert.Attn

/-- Row `512 b + j` of 4096, reduced modulo 4096. -/
def rowAt (b : ℕ) (j : Fin 512) : Fin 4096 := ⟨(512 * b + j.val) % 4096, Nat.mod_lt _ (by norm_num)⟩

theorem rowAt_val (b : ℕ) (hb : b < 8) (j : Fin 512) : (rowAt b j).val = 512 * b + j.val := by
  have := j.isLt
  show (512 * b + j.val) % 4096 = _
  exact Nat.mod_eq_of_lt (by omega)

end Cert.Attn
-- ==== Proof.Consts.lean ====
/-
  The float constants the two programs spell, as the extended reals their bit patterns denote.

  An f32 pattern is a sign bit, eight exponent bits (bias 127) and twenty-three fraction bits; a normal pattern
  with exponent field E and fraction T denotes ±(2^23 + T) · 2^(E - 150), the all-ones exponent with a zero
  fraction denotes ±∞, and the all-zero pattern denotes 0.
-/
import Idealize.ShloMosaic.PureOps.Ideal

noncomputable section

namespace Cert.Consts

open Idealize.ShloMosaic

/-- The all-zero pattern denotes `0`. -/
theorem ofBits_zero : Ideal.ofBits .f32 0x00000000#32 = 0 := by
  simp [Ideal.ofBits, Ideal.ieee]

/-- Sign 1, exponent all ones, fraction zero: `-∞`. -/
theorem ofBits_neg_inf : Ideal.ofBits .f32 0xFF800000#32 = ⊥ := by
  simp [Ideal.ofBits, Ideal.ieee]

/-- Exponent field 137, fraction zero: `2^23 · 2^(137 - 150) = 2^10 = 1024`. -/
theorem ofBits_1024 : Ideal.ofBits .f32 0x44800000#32 = ((1024 : ℝ) : EReal) := by
  simp [Ideal.ofBits, Ideal.ieee, -EReal.coe_mul]; norm_num

/-- Exponent field 122, fraction zero: `2^23 · 2^(122 - 150) = 2^(-5) = 1/32`. -/
theorem ofBits_inv32 : Ideal.ofBits .f32 0x3D000000#32 = ((1 / 32 : ℝ) : EReal) := by
  simp [Ideal.ofBits, Ideal.ieee, -EReal.coe_mul]; norm_num

/-- Sign 1, exponent field 254 (not all ones), so the pattern denotes a finite (large negative) real. -/
theorem ofBits_big_neg : ∃ r : ℝ, Ideal.ofBits .f32 0xFF333332#32 = ((r : ℝ) : EReal) := by
  refine ⟨-(11744050 * 2 ^ 104 : ℝ), ?_⟩
  simp [Ideal.ofBits, Ideal.ieee, -EReal.coe_mul]

end Cert.Consts

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.AttnRow.lean ====
/-
  The attention block's output, entry by entry, on the extended reals.

  Fix a query row `r` of the block and an output column `o`. Reading every operation of one step at the entries of
  row `r` — the scores as inner products of query row `r` with the key rows, the row maximum as a fold of `max`, the
  row sums as sums, the product with the value block as a sum over its rows — one step of the closed vocabulary acts on
  the triple (running maximum at row `r`, normaliser at row `r`, weighted sum at `(r, o)`) exactly as one step of the
  blockwise softmax-weighted average acts on three extended reals. By induction over the eight blocks the block's output
  at `(r, o)` is that average: the scores of row `r` against all 4096 key rows, the values column `o` of the value rows.
-/
import proofs.«179623_j35940286333005_2_alg».proof.Proof.AttnFound
import proofs.«179623_j35940286333005_2_alg».proof.Proof.OnlineSoftmax
import proofs.«179623_j35940286333005_2_alg».proof.Proof.RowAt
import proofs.«179623_j35940286333005_2_alg».proof.Proof.Consts
import proofs.«179623_j35940286333005_2_alg».proof.Proof.LibKeepdims
import proofs.«179623_j35940286333005_2_alg».proof.Proof.LibRowReduce
import proofs.«179623_j35940286333005_2_alg».proof.Proof.LibPlainDot
import proofs.«179623_j35940286333005_2_alg».proof.Proof.LibRowRowDot
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

open scoped BigOperators

namespace Cert.KernelIdeal.Attn

open Idealize.ShloMosaic Idealize.ShloMosaic.ValueIdx Idealize.ShloMosaic.TcCoe
open Idealize.SL Idealize.SL.Sem
open Cert.KernelIdeal Cert.KernelIdeal.Facts₀ Cert.KernelIdeal.Facts Cert.Attn

/-! ## One step, read at the entries of one row -/

section Step

variable (q : FVec Ideal S512x1024 .bf16) (kb vb : Vec Ideal S512x1024 .bf16) (m l : Vec Ideal S512x1 .f32)
  (a : Vec Ideal S512x1024 .f32)

/-- A score is the inner product of a query row with a key row. -/
theorem scoresF_apply (r j : Fin 512) :
    (scoresF q kb (ix2 r j) : EReal) = ∑ d : Fin 1024, (q (ix2 r d) : EReal) * (kb (ix2 j d) : EReal) := by
  unfold scoresF
  rw [shapeCast_self]
  exact Cert.LibRowRowDot.matmul_zero_rows_apply dot_S512x1024_S512x1024_S512x512_1_1_0_0_n_n rfl rfl rfl rfl rfl rfl none q kb r j

/-- The new running maximum of row `r`: the old one joined with the largest score of the row. -/
theorem maxF_apply (r : Fin 512) :
    (maxF q kb m (ix2 r (0 : Fin 1)) : EReal)
      = max (m (ix2 r (0 : Fin 1)) : EReal)
          (Finset.univ.fold max ⊥ (fun j : Fin 512 => ∑ d : Fin 1024, (q (ix2 r d) : EReal) * (kb (ix2 j d) : EReal))) := by
  unfold maxF
  rw [maximumf_apply, Cert.LibKeepdims.shapeCast_a_a1_apply]
  refine congrArg (max (m (ix2 r (0 : Fin 1)) : EReal)) ?_
  refine (Cert.LibRowReduce.multiReduction_max_row (scoresF q kb) 0xFF800000#32 reduces_S512x512_S512 (.inl rfl) rfl r).trans ?_
  rw [Cert.Consts.ofBits_neg_inf]
  simp only [scoresF_apply q kb]

/-- The rescaling factor of row `r`. -/
theorem alphaF_apply (r : Fin 512) :
    (alphaF q kb m (ix2 r (0 : Fin 1)) : EReal)
      = Ideal.exp ((m (ix2 r (0 : Fin 1)) : EReal) - (maxF q kb m (ix2 r (0 : Fin 1)) : EReal)) := rfl

/-- A weight: the exponential of a score less the row's new maximum. -/
theorem probF_apply (r j : Fin 512) :
    (probF q kb m (ix2 r j) : EReal)
      = Ideal.exp ((scoresF q kb (ix2 r j) : EReal) - (maxF q kb m (ix2 r (0 : Fin 1)) : EReal)) := by
  show Ideal.exp ((scoresF q kb (ix2 r j) : EReal) - (broadcastTo S512x512 (maxF q kb m) broadcasts_S512x1_S512x512 (ix2 r j) : EReal)) = _
  rw [Cert.LibKeepdims.broadcastTo_a1_ab_apply]

theorem maxStoreF_apply (r : Fin 512) :
    (maxStoreF q kb m (ix2 r (0 : Fin 1)) : EReal) = (maxF q kb m (ix2 r (0 : Fin 1)) : EReal) := by
  unfold maxStoreF
  rw [shapeCast_self]

/-- The new normaliser of row `r`. -/
theorem normF_apply (r : Fin 512) :
    (normF q kb m l (ix2 r (0 : Fin 1)) : EReal)
      = (alphaF q kb m (ix2 r (0 : Fin 1)) : EReal) * (l (ix2 r (0 : Fin 1)) : EReal)
        + ∑ j : Fin 512, (probF q kb m (ix2 r j) : EReal) := by
  unfold normF
  rw [shapeCast_self, addf_apply, mulf_apply, Cert.LibKeepdims.shapeCast_a_a1_apply]
  refine congrArg (fun t : EReal => (alphaF q kb m (ix2 r (0 : Fin 1)) : EReal) * (l (ix2 r (0 : Fin 1)) : EReal) + t) ?_
  exact Cert.LibRowReduce.multiReduction_add_row (probF q kb m) 0x00000000#32 reduces_S512x512_S512 (.inl rfl) rfl r

/-- The new weighted sum at `(r, o)`. -/
theorem accF_apply (r : Fin 512) (o : Fin 1024) :
    (accF q kb vb m a (ix2 r o) : EReal)
      = (alphaF q kb m (ix2 r (0 : Fin 1)) : EReal) * (a (ix2 r o) : EReal)
        + ∑ j : Fin 512, (probF q kb m (ix2 r j) : EReal) * (vb (ix2 j o) : EReal) := by
  unfold accF
  rw [shapeCast_self, addf_apply, mulf_apply, Cert.LibKeepdims.broadcastTo_a1_ab_apply, shapeCast_self]
  refine congrArg (fun t : EReal => (alphaF q kb m (ix2 r (0 : Fin 1)) : EReal) * (a (ix2 r o) : EReal) + t) ?_
  exact Cert.LibPlainDot.matmul_zero_apply dot_S512x512_S512x1024_S512x1024_1_0_0_1_n_n rfl rfl rfl rfl rfl rfl none
    (truncf .bf16 (probF q kb m) bitsLt_bf16_f32) vb r o

end Step

/-! ## The blocks of rows -/

/-- Block `k`'s row `j` is row `512 k + j` of the array. -/
theorem blkF_apply (x : Vec Ideal S4096x1024 .bf16) (k : ℕ) (hk : k < 8) (j : Fin 512) (d : Fin 1024) :
    (blkF x k hk (ix2 j d) : EReal) = (x (ix2 (rowAt k j) d) : EReal) := by
  unfold blkF
  show x ((Rect.unit (s := S4096x1024) ![512 * k, 0] S512x1024.size (blk_inb k hk)).idx (ix2 j d)) = _
  refine congrArg x (funext fun a => Fin.ext ?_)
  match a with
  | ⟨0, _⟩ =>
    show 512 * k + 1 * j.val = (rowAt k j).val
    rw [rowAt_val k hk j]; omega
  | ⟨1, _⟩ =>
    show 0 + 1 * d.val = d.val
    omega

/-! ## The eight blocks -/

/-- The scores of query row `r` against block `b`'s key rows. -/
def sRow (q : FVec Ideal S512x1024 .bf16) (x1 : Vec Ideal S4096x1024 .bf16) (r : Fin 512) : ℕ → Fin 512 → EReal :=
  fun b j => ∑ d : Fin 1024, (q (ix2 r d) : EReal) * (x1 (ix2 (rowAt b j) d) : EReal)

/-- Column `o` of block `b`'s value rows. -/
def vCol (x2 : Vec Ideal S4096x1024 .bf16) (o : Fin 1024) : ℕ → Fin 512 → EReal :=
  fun b j => (x2 (ix2 (rowAt b j) o) : EReal)

/-- After `k` blocks the triple at row `r` and column `o` is the blockwise average's running triple. -/
theorem state_row (q : FVec Ideal S512x1024 .bf16) (x1 x2 : Vec Ideal S4096x1024 .bf16) (r : Fin 512) (o : Fin 1024) :
    ∀ (k : ℕ) (hk : k ≤ 8),
      ((stateF q x1 x2 k hk).1 (ix2 r (0 : Fin 1)) : EReal)
          = (Cert.OnlineSoftmax.run (Ideal.ofBits .f32 0xFF333332#32) (sRow q x1 r) (vCol x2 o) k).1
      ∧ ((stateF q x1 x2 k hk).2.1 (ix2 r (0 : Fin 1)) : EReal)
          = (Cert.OnlineSoftmax.run (Ideal.ofBits .f32 0xFF333332#32) (sRow q x1 r) (vCol x2 o) k).2.1
      ∧ ((stateF q x1 x2 k hk).2.2 (ix2 r o) : EReal)
          = (Cert.OnlineSoftmax.run (Ideal.ofBits .f32 0xFF333332#32) (sRow q x1 r) (vCol x2 o) k).2.2
  | 0, _ => by
    rw [stateF_zero]
    unfold initF
    refine ⟨?_, ?_, ?_⟩
    · show (shapeCast S512x1 (broadcast S512x1 (Scalar.ofBits (F := Ideal) .f32 0xFF333332#32)) shapeCasts_S512x1_S512x1 (ix2 r (0 : Fin 1)) : EReal) = Ideal.ofBits .f32 0xFF333332#32
      rw [shapeCast_self]; rfl
    · show (shapeCast S512x1 (broadcast S512x1 (Scalar.ofBits (F := Ideal) .f32 0x00000000#32)) shapeCasts_S512x1_S512x1 (ix2 r (0 : Fin 1)) : EReal) = 0
      rw [shapeCast_self]; exact Cert.Consts.ofBits_zero
    · show (shapeCast S512x1024 (broadcast S512x1024 (Scalar.ofBits (F := Ideal) .f32 0x00000000#32)) shapeCasts_S512x1024_S512x1024 (ix2 r o) : EReal) = 0
      rw [shapeCast_self]; exact Cert.Consts.ofBits_zero
  | k + 1, hk => by
    obtain ⟨h1, h2, h3⟩ := state_row q x1 x2 r o k (Nat.le_of_succ_le hk)
    rw [stateF_succ]
    unfold stepF
    dsimp only
    refine ⟨?_, ?_, ?_⟩
    · rw [maxStoreF_apply, maxF_apply, h1]
      simp only [blkF_apply]
      rfl
    · rw [normF_apply]
      simp only [alphaF_apply, probF_apply, maxF_apply, scoresF_apply, blkF_apply, h1, h2]
      rfl
    · rw [accF_apply]
      simp only [alphaF_apply, probF_apply, maxF_apply, scoresF_apply, blkF_apply, h1, h3]
      rfl

/-- The block's output at `(r, o)`: the weighted sum over the normaliser after the eight blocks. -/
theorem finalF_apply (q : FVec Ideal S512x1024 .bf16) (x1 x2 : Vec Ideal S4096x1024 .bf16) (r : Fin 512) (o : Fin 1024) :
    (finalF q x1 x2 (ix2 r o) : EReal)
      = Cert.OnlineSoftmax.onlineRow (Ideal.ofBits .f32 0xFF333332#32) (sRow q x1 r) (vCol x2 o) 8 := by
  obtain ⟨-, h2, h3⟩ := state_row q x1 x2 r o 8 (Nat.le_refl 8)
  unfold finalF Cert.OnlineSoftmax.onlineRow
  rw [divf_apply, Cert.LibKeepdims.broadcastTo_a1_ab_apply, h2, h3]

/-- Entry `(r, o)` of the output block: the blockwise softmax-weighted average, started from the finite maximum the
    body starts from, of the value rows' entries in column `o`, the scores being the inner products of query row `r`
    with the key rows. -/
theorem block_row (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole)
    (x0 : Vec Ideal S512x1024 .bf16) (x1 : Vec Ideal S4096x1024 .bf16) (x2 : Vec Ideal S4096x1024 .bf16) (r : Fin 512) (o : Fin 1024) :
    Gen.out1_A_3 (F := Ideal) c i arg1 harg1 arg2 harg2 arg3 harg3 arg4 harg4 arg5 harg5 arg6 harg6 arg7 harg7 x0 x1 x2 (ix2 r o)
      = Cert.OnlineSoftmax.onlineRow (Ideal.ofBits .f32 0xFF333332#32)
          (fun b j => ∑ d : Fin 1024, (x0 (ix2 r d) : EReal) * (x1 (ix2 (rowAt b j) d) : EReal))
          (fun b j => (x2 (ix2 (rowAt b j) o) : EReal)) 8 := by
  rw [out_eq_finalF, finalF_apply]
  unfold sRow vCol queryF
  rw [shapeCast_self]

end Cert.KernelIdeal.Attn

end
-- ==== Proof.AttnArray.lean ====
/-
  The attention call's output array, entry by entry.

  The call walks the 4096 query rows in eight blocks of 512: at point `t` the body sees rows `512 t … 512 t + 511` of
  the query array and the whole key and value arrays, and writes rows `512 t … 512 t + 511` of the output. Every row
  of the output therefore lies in exactly the block of the point `p / 512`, and entry `(p, o)` is the blockwise
  softmax average of the value column `o` with the scores of query row `p` against all key rows.
-/
import proofs.«179623_j35940286333005_2_alg».proof.Proof.AttnRow
import proofs.«179623_j35940286333005_2_alg».proof.Proof.Gen.KernelIdeal.Frame
import proofs.«179623_j35940286333005_2_alg».proof.Proof.Gen.KernelIdeal.Points
import Idealize.ShloMosaic.Lib.Pipeline.Value
import Idealize.ShloMosaic.Lib.ValueIdx

set_option maxRecDepth 16384

noncomputable section

open scoped BigOperators

namespace Cert.KernelIdeal.Attn

open Idealize.ShloMosaic Idealize.ShloMosaic.ValueIdx Idealize.ShloMosaic.TcCoe
open Idealize.SL Idealize.SL.Sem
open Idealize.ShloMosaic.Pipeline (Dat)
open Cert.KernelIdeal Cert.KernelIdeal.Gen Cert.Attn

variable (V : (c : Dev nD) → (b : Ref sig .tc) → Buf (Elt Ideal) ((c : Thread nD τ).loc b))

/-- The block index maps over the eight points: the query and output windows take block `t` of the rows and the one
    block of the columns; the key and value windows take the whole array at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The query block at point `t`: its row `r` is row `512 t + r` of the query array. -/
theorem iblk0_apply (c : Dev nD) (t : Fin cfg1.N) (r : Fin 512) (d : Fin 1024) (k : Fin 4096)
    (hk : k.val = 512 * t.val + r.val) :
    (iblk1 (F := Ideal) V c 0 t : Vec Ideal S512x1024 .bf16) (ix2 r d)
      = (V c (Pipeline.arrRef spec1 0) : S4096x1024.Idx → EReal) (ix2 k d) := by
  obtain ⟨e0, e1, -⟩ := idx_facts t
  unfold iblk1
  rw [View.read_apply]
  refine congrArg (V c (Pipeline.arrRef spec1 0)) ?_
  funext a
  apply Fin.ext
  match a with
  | ⟨0, _⟩ => show win1_0.index t (0 : Fin 2) * 512 + 1 * r.val = k.val; rw [e0, hk]; omega
  | ⟨1, _⟩ => show win1_0.index t (1 : Fin 2) * 1024 + 1 * d.val = d.val; rw [e1]; omega

/-- The key block at every point is the whole key array. -/
theorem iblk1_apply (c : Dev nD) (t : Fin cfg1.N) (j : Fin 4096) (d : Fin 1024) :
    (iblk1 (F := Ideal) V c 1 t : Vec Ideal S4096x1024 .bf16) (ix2 j d)
      = (V c (Pipeline.arrRef spec1 1) : S4096x1024.Idx → EReal) (ix2 j d) := by
  obtain ⟨-, -, e2, e3, -⟩ := idx_facts t
  unfold iblk1
  rw [View.read_apply]
  refine congrArg (V c (Pipeline.arrRef spec1 1)) ?_
  funext a
  apply Fin.ext
  match a with
  | ⟨0, _⟩ => show win1_1.index t (0 : Fin 2) * 4096 + 1 * j.val = j.val; rw [e2]; omega
  | ⟨1, _⟩ => show win1_1.index t (1 : Fin 2) * 1024 + 1 * d.val = d.val; rw [e3]; omega

/-- The value block at every point is the whole value array. -/
theorem iblk2_apply (c : Dev nD) (t : Fin cfg1.N) (j : Fin 4096) (d : Fin 1024) :
    (iblk1 (F := Ideal) V c 2 t : Vec Ideal S4096x1024 .bf16) (ix2 j d)
      = (V c (Pipeline.arrRef spec1 2) : S4096x1024.Idx → EReal) (ix2 j d) := by
  obtain ⟨-, -, -, -, e4, e5, -⟩ := idx_facts t
  unfold iblk1
  rw [View.read_apply]
  refine congrArg (V c (Pipeline.arrRef spec1 2)) ?_
  funext a
  apply Fin.ext
  match a with
  | ⟨0, _⟩ => show win1_2.index t (0 : Fin 2) * 4096 + 1 * j.val = j.val; rw [e4]; omega
  | ⟨1, _⟩ => show win1_2.index t (1 : Fin 2) * 1024 + 1 * d.val = d.val; rw [e5]; omega

/-- The query, key and value arrays as the call finds them, as functions on the literal index type. -/
abbrev arrQ (c : Dev nD) : S4096x1024.Idx → EReal := V c (Pipeline.arrRef spec1 0)
abbrev arrK (c : Dev nD) : S4096x1024.Idx → EReal := V c (Pipeline.arrRef spec1 1)
abbrev arrV (c : Dev nD) : S4096x1024.Idx → EReal := V c (Pipeline.arrRef spec1 2)

/-- Entry `(p, o)` of the output as a function of the three arrays the call reads: the blockwise softmax average, over
    the eight blocks of 512 key rows, of the value entries in column `o`, the scores being the inner products of query
    row `p` with the key rows. -/
def entry (c : Dev nD) (p : Fin 4096) (o : Fin 1024) : EReal :=
  Cert.OnlineSoftmax.onlineRow (Ideal.ofBits .f32 0xFF333332#32)
    (fun b j => ∑ d : Fin 1024, arrQ V c (ix2 p d) * arrK V c (ix2 (rowAt b j) d))
    (fun b j => arrV V c (ix2 (rowAt b j) o)) 8

/-- The blockwise average depends on its blocks only through the entries it reads: a query block whose row `r` is row
    `p` of `q`, and key and value blocks that are the arrays `k`, `v`, give the average over `q`, `k`, `v`. -/
theorem onlineRow_of_blocks (x0 : Vec Ideal S512x1024 .bf16) (x1 x2 : Vec Ideal S4096x1024 .bf16)
    (q k v : S4096x1024.Idx → EReal) (r : Fin 512) (p : Fin 4096) (o : Fin 1024)
    (h0 : ∀ d : Fin 1024, x0 (ix2 r d) = q (ix2 p d)) (h1 : ∀ (j : Fin 4096) (d : Fin 1024), x1 (ix2 j d) = k (ix2 j d))
    (h2 : ∀ j : Fin 4096, x2 (ix2 j o) = v (ix2 j o)) :
    Cert.OnlineSoftmax.onlineRow (Ideal.ofBits .f32 0xFF333332#32)
        (fun b j => ∑ d : Fin 1024, (x0 (ix2 r d) : EReal) * (x1 (ix2 (rowAt b j) d) : EReal))
        (fun b j => (x2 (ix2 (rowAt b j) o) : EReal)) 8
      = Cert.OnlineSoftmax.onlineRow (Ideal.ofBits .f32 0xFF333332#32)
        (fun b j => ∑ d : Fin 1024, q (ix2 p d) * k (ix2 (rowAt b j) d))
        (fun b j => v (ix2 (rowAt b j) o)) 8 := by
  have e1 : (fun (b : ℕ) (j : Fin 512) => ∑ d : Fin 1024, (x0 (ix2 r d) : EReal) * (x1 (ix2 (rowAt b j) d) : EReal))
      = fun b j => ∑ d : Fin 1024, q (ix2 p d) * k (ix2 (rowAt b j) d) :=
    funext fun b => funext fun j => Finset.sum_congr rfl fun d _ => by rw [h0 d, h1 (rowAt b j) d]
  have e2 : (fun (b : ℕ) (j : Fin 512) => (x2 (ix2 (rowAt b j) o) : EReal)) = fun b j => v (ix2 (rowAt b j) o) :=
    funext fun b => funext fun j => h2 (rowAt b j)
  rw [e1, e2]

/-- What the body leaves at point `t`: row `r` of its block is row `512 t + r` of `entry`. -/
theorem outs_apply (c : Dev nD) (t : Fin cfg1.N) (r : Fin 512) (o : Fin 1024) (k : Fin 4096)
    (hk : k.val = 512 * t.val + r.val) :
    outsAt1 (F := Ideal) V c t (ix2 r o) = entry V c k o := by
  unfold outsAt1
  refine (block_row c _ _ _ _ _ _ _ _ _ _ _ _ _ _ _ (iblk1 (F := Ideal) V c 0 t) (iblk1 (F := Ideal) V c 1 t)
    (iblk1 (F := Ideal) V c 2 t) r o).trans ?_
  exact onlineRow_of_blocks (iblk1 (F := Ideal) V c 0 t) (iblk1 (F := Ideal) V c 1 t) (iblk1 (F := Ideal) V c 2 t)
    (arrQ V c) (arrK V c) (arrV V c) r k o (fun d => iblk0_apply V c t r d k hk) (fun j d => iblk1_apply V c t j d)
    (fun j => iblk2_apply V c t j o)

/-- An index of the output array is in point `t`'s block iff each coordinate is in the block's range on its axis. -/
theorem mem_blk (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v9).slice (win1_3.rect t)).set ↔ _
  rw [View.set_slice_whole, Rect.mem_set_unit]
  exact Iff.rfl

/-- Every index of the output array is in the block of the point `(row) / 512`, and every point writes its block back. -/
theorem cover (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have ht : (i 0).val / 512 < cfg1.N := by show (i 0).val / 512 < 8; omega
  obtain ⟨-, -, -, -, -, -, e6, e7⟩ := idx_facts ⟨(i 0).val / 512, ht⟩
  refine ⟨⟨(i 0).val / 512, ht⟩, flush1_3 _, ?_⟩
  rw [mem_blk]
  intro a
  match a with
  | ⟨0, _⟩ =>
    show win1_3.index ⟨(i 0).val / 512, ht⟩ (0 : Fin 2) * 512 ≤ (i 0).val
      ∧ (i 0).val < win1_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win1_3.index ⟨(i 0).val / 512, ht⟩ (1 : Fin 2) * 1024 ≤ (i 1).val
      ∧ (i 1).val < win1_3.index ⟨(i 0).val / 512, ht⟩ (1 : Fin 2) * 1024 + 1024
    rw [e7]; omega

/-- The output array after the call, entry by entry: every entry is written by the point whose block holds its row,
    and every such write is `entry` at that row and column. -/
theorem arr_entry (c : Dev nD) (i : S4096x1024.Idx) :
    ((dat1 (F := Ideal) V c).arrAt 3 cfg1.N : S4096x1024.Idx → EReal) i = entry V c (i 0) (i 1) := by
  refine (dat1 (F := Ideal) V c).arrAt_forall_of_cover 3
    (fun (i : S4096x1024.Idx) (v : EReal) => v = entry V c (i 0) (i 1)) ?_ (cover) i
  intro t _ (y : S512x1024.Idx)
  obtain ⟨r, o, rfl⟩ : ∃ (r : Fin 512) (o : Fin 1024), y = ix2 r o := ⟨y 0, y 1, eq_ix2 y⟩
  obtain ⟨-, -, -, -, -, -, e6, e7⟩ := idx_facts t
  have ht : t.val < 8 := t.isLt
  show (cfg1.win 3).cut (grid1.coords t) ((dat1 (F := Ideal) V c).after 3 t) (ix2 r o)
    = entry V c ((((cfg1.win 3).blk t).view.emb (ix2 r o) : S4096x1024.Idx) 0) ((((cfg1.win 3).blk t).view.emb (ix2 r o) : S4096x1024.Idx) 1)
  rw [after1_3]
  have hk : (((((cfg1.win 3).blk t).view.emb (ix2 r o) : S4096x1024.Idx) 0 : Fin 4096)).val = 512 * t.val + r.val := by
    show win1_3.index t (0 : Fin 2) * 512 + 1 * r.val = _
    rw [e6]; omega
  have ho : ((((cfg1.win 3).blk t).view.emb (ix2 r o) : S4096x1024.Idx) 1 : Fin 1024) = o := by
    apply Fin.ext
    show win1_3.index t (1 : Fin 2) * 1024 + 1 * o.val = _
    rw [e7]; omega
  rw [ho]
  exact outs_apply V c t r o _ hk

/-- Entry `(p, o)` of the output array after the call. -/
theorem attn_arr (c : Dev nD) (p : Fin 4096) (o : Fin 1024) :
    ((dat1 (F := Ideal) V c).arrAt 3 cfg1.N : S4096x1024.Idx → EReal) (ix2 p o)
      = Cert.OnlineSoftmax.onlineRow (Ideal.ofBits .f32 0xFF333332#32)
          (fun b j => ∑ d : Fin 1024, arrQ V c (ix2 p d) * arrK V c (ix2 (rowAt b j) d))
          (fun b j => arrV V c (ix2 (rowAt b j) o)) 8 :=
  arr_entry V c (ix2 p o)

/-- The same, with the three arrays the call reads and the array it leaves named as functions on the literal index type. -/
theorem attn_arr_of (c : Dev nD) (Vq Vk Vv R : (⟨2, ![4096, 1024]⟩ : Shape).Idx → EReal)
    (hVq : Vq = V c (Pipeline.arrRef spec1 0)) (hVk : Vk = V c (Pipeline.arrRef spec1 1))
    (hVv : Vv = V c (Pipeline.arrRef spec1 2)) (hR : R = (dat1 (F := Ideal) V c).arrAt 3 cfg1.N)
    (p : Fin 4096) (o : Fin 1024) :
    R (ix2 p o)
      = Cert.OnlineSoftmax.onlineRow (Ideal.ofBits .f32 0xFF333332#32)
          (fun b j => ∑ d : Fin 1024, Vq (ix2 p d) * Vk (ix2 (rowAt b j) d))
          (fun b j => Vv (ix2 (rowAt b j) o)) 8 := by
  subst hVq hVk hVv hR
  exact attn_arr V c p o

/-- The same, the left side spelled as the array after the call. -/
theorem attn_arr_vars (c : Dev nD) (Vq Vk Vv : (⟨2, ![4096, 1024]⟩ : Shape).Idx → EReal)
    (hVq : Vq = V c (Pipeline.arrRef spec1 0)) (hVk : Vk = V c (Pipeline.arrRef spec1 1))
    (hVv : Vv = V c (Pipeline.arrRef spec1 2)) (p : Fin 4096) (o : Fin 1024) :
    (dat1 (F := Ideal) V c).arrAt 3 cfg1.N (ix2 p o)
      = Cert.OnlineSoftmax.onlineRow (Ideal.ofBits .f32 0xFF333332#32)
          (fun b j => ∑ d : Fin 1024, Vq (ix2 p d) * Vk (ix2 (rowAt b j) d))
          (fun b j => Vv (ix2 (rowAt b j) o)) 8 := by
  subst hVq hVk hVv
  exact attn_arr V c p o

end Cert.KernelIdeal.Attn

end
-- ==== Proof.ProjArray.lean ====
/-
  The projection call's three output arrays, entry by entry, and the host lines before the call.

  The call runs over 8 grid points. At point t it reads rows 512 t … 512 t + 511 of the [4096, 1024] input and the whole of
  each [1024, 1024] weight, and writes rows 512 t … 512 t + 511 of each of three [4096, 1024] outputs: the block's rows
  against the weight's columns, a plain matrix product into a zero accumulator (the two narrowings are the identity on
  extended reals). The 8 row blocks cover the output, so after the call output entry (p, d) is the sum over k of
  input (p, k) times weight (k, d).

  Before the call the host transposes each weight argument (and multiplies the first by a constant): the weight the call
  reads at (k, d) is the argument at (d, k), for the first weight times the constant.
-/
import proofs.«179623_j35940286333005_2_alg».proof.Proof.Gen.KernelIdeal.Frame
import proofs.«179623_j35940286333005_2_alg».proof.Proof.LibPlainDot
import Idealize.ShloMosaic.Lib.Pipeline.Value
import Idealize.ShloMosaic.Lib.ValueLayout
import Idealize.ShloMosaic.Lib.IdealHost
import Idealize.ShloMosaic.Lib.Tactic

set_option maxRecDepth 16384

noncomputable section

namespace Cert.KernelIdeal.Proj

open Cert.KernelIdeal Cert.KernelIdeal.Gen Idealize.ShloMosaic Idealize.ShloMosaic.ValueIdx Idealize.SL.Sem
open Idealize.ShloMosaic.TcCoe
open Idealize.ShloMosaic.Pipeline (Dat)
open scoped BigOperators

theorem zero_offsets : (![0, 0] : Fin 2 → Nat) = fun _ => 0 := funext fun a => by fin_cases a <;> rfl

/-- The product array: entry (p, d) is row p of X against column d of Wt. -/
def projArr (X : S4096x1024.Idx → EReal) (Wt : S1024x1024.Idx → EReal) : S4096x1024.Idx → EReal :=
  fun i => ∑ k : Fin 1024, X (ix2 (i 0) k) * Wt (ix2 k (i 1))

theorem projArr_apply (X : S4096x1024.Idx → EReal) (Wt : S1024x1024.Idx → EReal) (p : Fin 4096) (d : Fin 1024) :
    projArr X Wt (ix2 p d) = ∑ k : Fin 1024, X (ix2 p k) * Wt (ix2 k d) := rfl

/-- The index maps, decided over the grid: the input block and each output block sit at block row t, column block 0;
    each weight is one block at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-! ## Output window 4: the first projection -/

/-- The first projection's payload at an entry: row r of the block against column d of the weight. The narrowing of
    the block and of the product are the identity on extended reals, and the product into the zero accumulator is the
    plain sum over the contracted coordinate. -/
theorem pay2_apply (x : Vec Ideal S512x1024 .f32) (w : Vec Ideal S1024x1024 .bf16) (r : Fin 512) (d : Fin 1024) :
    (k0_pay2 x w (ix2 r d) : EReal) = ∑ k : Fin 1024, (x (ix2 r k) : EReal) * (w (ix2 k d) : EReal) := by
  unfold k0_pay2 k0_pay1
  rw [truncf_apply, shapeCast_self]
  exact Cert.LibPlainDot.matmul_zero_apply _ rfl rfl rfl rfl rfl rfl none _ _ r d

/-- A block's payload entry is the product array's entry, when the block's row is the array's row and the weight's
    column is the array's column. -/
theorem pay2_block (X : S4096x1024.Idx → EReal) (Wt : S1024x1024.Idx → EReal) (x0 : Vec Ideal S512x1024 .f32)
    (x1 : Vec Ideal S1024x1024 .bf16) (y : S512x1024.Idx) (i : S4096x1024.Idx)
    (hx0 : ∀ k : Fin 1024, (x0 (ix2 (y 0) k) : EReal) = X (ix2 (i 0) k))
    (hx1 : ∀ k : Fin 1024, (x1 (ix2 k (y 1)) : EReal) = Wt (ix2 k (i 1))) :
    (k0_pay2 x0 x1 y : EReal) = projArr X Wt i := by
  refine (congrArg (fun z => (k0_pay2 x0 x1 z : EReal)) (eq_ix2 y)).trans ((pay2_apply x0 x1 (y 0) (y 1)).trans ?_)
  unfold projArr
  exact Finset.sum_congr rfl fun k _ => by rw [hx0, hx1]

/-- What point t writes back is block t of the product array of the input and the first weight as the region finds
    them: the input block's row r is the array's row 512 t + r, and the weight's block is the whole weight. -/
theorem flushed4_eq (c : Dev nD) (t : Fin cfg0.N) :
    (dat0 (F := Ideal) V c).flushed 4 t
      = ((cfg0.win 4).blk t).view.read (Elt Ideal) (projArr (V c (Pipeline.arrRef spec0 0)) (V c (Pipeline.arrRef spec0 1))) := by
  show (cfg0.win 4).cut (grid0.coords t) ((dat0 V c).after 4 t) = _
  rw [after0_4]
  unfold out0_4
  rw [View.canon_unit_zero zero_offsets]
  simp only [View.ld_unit_zero (S := S512x1024) zero_offsets, View.ld_unit_zero (S := S1024x1024) zero_offsets]
  obtain ⟨e00, e01, e10, e11, e20, e21, e30, e31, e40, e41, e50, e51, e60, e61⟩ := idx_facts t
  funext j
  refine pay2_block (V c (Pipeline.arrRef spec0 0)) (V c (Pipeline.arrRef spec0 1)) _ _ j (((cfg0.win 4).blk t).view.emb j) (fun k => ?_) (fun k => ?_)
  · unfold iblk0
    rw [View.read_apply]
    show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 512 + 1 * (j 0).val = win0_4.index t (0 : Fin 2) * 512 + 1 * (j 0).val; rw [e00, e40]
    | ⟨1, _⟩ => show win0_0.index t (1 : Fin 2) * 1024 + 1 * k.val = k.val; rw [e01]; omega
  · unfold iblk0
    rw [View.read_apply]
    show V c main_v3 (((cfg0.win 1).blk t).view.emb (ix2 k (j 1))) = V c main_v3 _
    refine congrArg (V c main_v3) (funext fun a => Fin.ext ?_)
    match a with
    | ⟨0, _⟩ => show win0_1.index t (0 : Fin 2) * 1024 + 1 * k.val = k.val; rw [e10]; omega
    | ⟨1, _⟩ => show win0_1.index t (1 : Fin 2) * 1024 + 1 * (j 1).val = win0_4.index t (1 : Fin 2) * 1024 + 1 * (j 1).val; rw [e11, e41]

/-- An index of the array is in point t's block iff each coordinate is in the block's range on its axis. -/
theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v8_0).slice (win0_4.rect t)).set ↔ _
  rw [View.set_slice_whole, Rect.mem_set_unit]
  exact Iff.rfl

/-- Row p lies in the block of point p / 512, which is written back. -/
theorem cover4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_4 _, ?_⟩
  rw [mem_blk4]
  obtain ⟨e00, e01, e10, e11, e20, e21, e30, e31, e40, e41, e50, e51, e60, e61⟩ := idx_facts ⟨(i 0).val / 512, by rw [hN]; omega⟩
  intro a
  match a with
  | ⟨0, _⟩ =>
    show win0_4.index _ (0 : Fin 2) * 512 ≤ (i 0).val ∧ (i 0).val < win0_4.index _ (0 : Fin 2) * 512 + 512
    rw [e40]; show (i 0).val / 512 * 512 ≤ (i 0).val ∧ (i 0).val < (i 0).val / 512 * 512 + 512; omega
  | ⟨1, _⟩ =>
    show win0_4.index _ (1 : Fin 2) * 1024 ≤ (i 1).val ∧ (i 1).val < win0_4.index _ (1 : Fin 2) * 1024 + 1024
    rw [e41]; omega

/-- The first projection's output array after the call is the product array of the input and the first weight. -/
theorem proj_arr4_fn (c : Dev nD) :
    (dat0 (F := Ideal) V c).arrAt 4 cfg0.N = projArr (V c (Pipeline.arrRef spec0 0)) (V c (Pipeline.arrRef spec0 1)) :=
  (dat0 (F := Ideal) V c).arrAt_eq_of_cover 4 (projArr (V c (Pipeline.arrRef spec0 0)) (V c (Pipeline.arrRef spec0 1)))
    (fun t _ => flushed4_eq V c t) cover4

/-- The same, entry by entry, the input and the weight named at their literal types. -/
theorem proj_arr4 (c : Dev nD) (X : S4096x1024.Idx → EReal) (W : S1024x1024.Idx → EReal)
    (hX : X = V c (Pipeline.arrRef spec0 0)) (hW : W = V c (Pipeline.arrRef spec0 1)) (p : Fin 4096) (d : Fin 1024) :
    (dat0 (F := Ideal) V c).arrAt 4 cfg0.N (ix2 p d) = ∑ k : Fin 1024, X (ix2 p k) * W (ix2 k d) := by
  subst hX hW
  exact congrFun (proj_arr4_fn V c) (ix2 p d)

/-- The same with the output array named too. -/
theorem proj_arr4_at (c : Dev nD) (X R : S4096x1024.Idx → EReal) (W : S1024x1024.Idx → EReal)
    (hX : X = V c (Pipeline.arrRef spec0 0)) (hW : W = V c (Pipeline.arrRef spec0 1))
    (hR : R = (dat0 (F := Ideal) V c).arrAt 4 cfg0.N) (p : Fin 4096) (d : Fin 1024) :
    R (ix2 p d) = ∑ k : Fin 1024, X (ix2 p k) * W (ix2 k d) := by
  subst hX hW hR
  exact congrFun (proj_arr4_fn V c) (ix2 p d)

/-! ## Output window 5: the second projection -/

/-- The second projection's payload at an entry: row r of the block against column d of the weight. The narrowing of
    the block and of the product are the identity on extended reals, and the product into the zero accumulator is the
    plain sum over the contracted coordinate. -/
theorem pay3_apply (x : Vec Ideal S512x1024 .f32) (w : Vec Ideal S1024x1024 .bf16) (r : Fin 512) (d : Fin 1024) :
    (k0_pay3 x w (ix2 r d) : EReal) = ∑ k : Fin 1024, (x (ix2 r k) : EReal) * (w (ix2 k d) : EReal) := by
  unfold k0_pay3 k0_pay1
  rw [truncf_apply, shapeCast_self]
  exact Cert.LibPlainDot.matmul_zero_apply _ rfl rfl rfl rfl rfl rfl none _ _ r d

/-- A block's payload entry is the product array's entry, when the block's row is the array's row and the weight's
    column is the array's column. -/
theorem pay3_block (X : S4096x1024.Idx → EReal) (Wt : S1024x1024.Idx → EReal) (x0 : Vec Ideal S512x1024 .f32)
    (x1 : Vec Ideal S1024x1024 .bf16) (y : S512x1024.Idx) (i : S4096x1024.Idx)
    (hx0 : ∀ k : Fin 1024, (x0 (ix2 (y 0) k) : EReal) = X (ix2 (i 0) k))
    (hx1 : ∀ k : Fin 1024, (x1 (ix2 k (y 1)) : EReal) = Wt (ix2 k (i 1))) :
    (k0_pay3 x0 x1 y : EReal) = projArr X Wt i := by
  refine (congrArg (fun z => (k0_pay3 x0 x1 z : EReal)) (eq_ix2 y)).trans ((pay3_apply x0 x1 (y 0) (y 1)).trans ?_)
  unfold projArr
  exact Finset.sum_congr rfl fun k _ => by rw [hx0, hx1]

/-- What point t writes back is block t of the product array of the input and the second weight as the region finds
    them: the input block's row r is the array's row 512 t + r, and the weight's block is the whole weight. -/
theorem flushed5_eq (c : Dev nD) (t : Fin cfg0.N) :
    (dat0 (F := Ideal) V c).flushed 5 t
      = ((cfg0.win 5).blk t).view.read (Elt Ideal) (projArr (V c (Pipeline.arrRef spec0 0)) (V c (Pipeline.arrRef spec0 2))) := by
  show (cfg0.win 5).cut (grid0.coords t) ((dat0 V c).after 5 t) = _
  rw [after0_5]
  unfold out0_5
  rw [View.canon_unit_zero zero_offsets]
  simp only [View.ld_unit_zero (S := S512x1024) zero_offsets, View.ld_unit_zero (S := S1024x1024) zero_offsets]
  obtain ⟨e00, e01, e10, e11, e20, e21, e30, e31, e40, e41, e50, e51, e60, e61⟩ := idx_facts t
  funext j
  refine pay3_block (V c (Pipeline.arrRef spec0 0)) (V c (Pipeline.arrRef spec0 2)) _ _ j (((cfg0.win 5).blk t).view.emb j) (fun k => ?_) (fun k => ?_)
  · unfold iblk0
    rw [View.read_apply]
    show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 512 + 1 * (j 0).val = win0_5.index t (0 : Fin 2) * 512 + 1 * (j 0).val; rw [e00, e50]
    | ⟨1, _⟩ => show win0_0.index t (1 : Fin 2) * 1024 + 1 * k.val = k.val; rw [e01]; omega
  · unfold iblk0
    rw [View.read_apply]
    show V c main_v5 (((cfg0.win 2).blk t).view.emb (ix2 k (j 1))) = V c main_v5 _
    refine congrArg (V c main_v5) (funext fun a => Fin.ext ?_)
    match a with
    | ⟨0, _⟩ => show win0_2.index t (0 : Fin 2) * 1024 + 1 * k.val = k.val; rw [e20]; omega
    | ⟨1, _⟩ => show win0_2.index t (1 : Fin 2) * 1024 + 1 * (j 1).val = win0_5.index t (1 : Fin 2) * 1024 + 1 * (j 1).val; rw [e21, e51]

/-- An index of the array is in point t's block iff each coordinate is in the block's range on its axis. -/
theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v8_1).slice (win0_5.rect t)).set ↔ _
  rw [View.set_slice_whole, Rect.mem_set_unit]
  exact Iff.rfl

/-- Row p lies in the block of point p / 512, which is written back. -/
theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_5 _, ?_⟩
  rw [mem_blk5]
  obtain ⟨e00, e01, e10, e11, e20, e21, e30, e31, e40, e41, e50, e51, e60, e61⟩ := idx_facts ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e50]; show (i 0).val / 512 * 512 ≤ (i 0).val ∧ (i 0).val < (i 0).val / 512 * 512 + 512; omega
  | ⟨1, _⟩ =>
    show win0_5.index _ (1 : Fin 2) * 1024 ≤ (i 1).val ∧ (i 1).val < win0_5.index _ (1 : Fin 2) * 1024 + 1024
    rw [e51]; omega

/-- The second projection's output array after the call is the product array of the input and the second weight. -/
theorem proj_arr5_fn (c : Dev nD) :
    (dat0 (F := Ideal) V c).arrAt 5 cfg0.N = projArr (V c (Pipeline.arrRef spec0 0)) (V c (Pipeline.arrRef spec0 2)) :=
  (dat0 (F := Ideal) V c).arrAt_eq_of_cover 5 (projArr (V c (Pipeline.arrRef spec0 0)) (V c (Pipeline.arrRef spec0 2)))
    (fun t _ => flushed5_eq V c t) cover5

/-- The same, entry by entry, the input and the weight named at their literal types. -/
theorem proj_arr5 (c : Dev nD) (X : S4096x1024.Idx → EReal) (W : S1024x1024.Idx → EReal)
    (hX : X = V c (Pipeline.arrRef spec0 0)) (hW : W = V c (Pipeline.arrRef spec0 2)) (p : Fin 4096) (d : Fin 1024) :
    (dat0 (F := Ideal) V c).arrAt 5 cfg0.N (ix2 p d) = ∑ k : Fin 1024, X (ix2 p k) * W (ix2 k d) := by
  subst hX hW
  exact congrFun (proj_arr5_fn V c) (ix2 p d)

/-- The same with the output array named too. -/
theorem proj_arr5_at (c : Dev nD) (X R : S4096x1024.Idx → EReal) (W : S1024x1024.Idx → EReal)
    (hX : X = V c (Pipeline.arrRef spec0 0)) (hW : W = V c (Pipeline.arrRef spec0 2))
    (hR : R = (dat0 (F := Ideal) V c).arrAt 5 cfg0.N) (p : Fin 4096) (d : Fin 1024) :
    R (ix2 p d) = ∑ k : Fin 1024, X (ix2 p k) * W (ix2 k d) := by
  subst hX hW hR
  exact congrFun (proj_arr5_fn V c) (ix2 p d)

/-! ## Output window 6: the third projection -/

/-- The third projection's payload at an entry: row r of the block against column d of the weight. The narrowing of
    the block and of the product are the identity on extended reals, and the product into the zero accumulator is the
    plain sum over the contracted coordinate. -/
theorem pay4_apply (x : Vec Ideal S512x1024 .f32) (w : Vec Ideal S1024x1024 .bf16) (r : Fin 512) (d : Fin 1024) :
    (k0_pay4 x w (ix2 r d) : EReal) = ∑ k : Fin 1024, (x (ix2 r k) : EReal) * (w (ix2 k d) : EReal) := by
  unfold k0_pay4 k0_pay1
  rw [truncf_apply, shapeCast_self]
  exact Cert.LibPlainDot.matmul_zero_apply _ rfl rfl rfl rfl rfl rfl none _ _ r d

/-- A block's payload entry is the product array's entry, when the block's row is the array's row and the weight's
    column is the array's column. -/
theorem pay4_block (X : S4096x1024.Idx → EReal) (Wt : S1024x1024.Idx → EReal) (x0 : Vec Ideal S512x1024 .f32)
    (x1 : Vec Ideal S1024x1024 .bf16) (y : S512x1024.Idx) (i : S4096x1024.Idx)
    (hx0 : ∀ k : Fin 1024, (x0 (ix2 (y 0) k) : EReal) = X (ix2 (i 0) k))
    (hx1 : ∀ k : Fin 1024, (x1 (ix2 k (y 1)) : EReal) = Wt (ix2 k (i 1))) :
    (k0_pay4 x0 x1 y : EReal) = projArr X Wt i := by
  refine (congrArg (fun z => (k0_pay4 x0 x1 z : EReal)) (eq_ix2 y)).trans ((pay4_apply x0 x1 (y 0) (y 1)).trans ?_)
  unfold projArr
  exact Finset.sum_congr rfl fun k _ => by rw [hx0, hx1]

/-- What point t writes back is block t of the product array of the input and the third weight as the region finds
    them: the input block's row r is the array's row 512 t + r, and the weight's block is the whole weight. -/
theorem flushed6_eq (c : Dev nD) (t : Fin cfg0.N) :
    (dat0 (F := Ideal) V c).flushed 6 t
      = ((cfg0.win 6).blk t).view.read (Elt Ideal) (projArr (V c (Pipeline.arrRef spec0 0)) (V c (Pipeline.arrRef spec0 3))) := by
  show (cfg0.win 6).cut (grid0.coords t) ((dat0 V c).after 6 t) = _
  rw [after0_6]
  unfold out0_6
  rw [View.canon_unit_zero zero_offsets]
  simp only [View.ld_unit_zero (S := S512x1024) zero_offsets, View.ld_unit_zero (S := S1024x1024) zero_offsets]
  obtain ⟨e00, e01, e10, e11, e20, e21, e30, e31, e40, e41, e50, e51, e60, e61⟩ := idx_facts t
  funext j
  refine pay4_block (V c (Pipeline.arrRef spec0 0)) (V c (Pipeline.arrRef spec0 3)) _ _ j (((cfg0.win 6).blk t).view.emb j) (fun k => ?_) (fun k => ?_)
  · unfold iblk0
    rw [View.read_apply]
    show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 512 + 1 * (j 0).val = win0_6.index t (0 : Fin 2) * 512 + 1 * (j 0).val; rw [e00, e60]
    | ⟨1, _⟩ => show win0_0.index t (1 : Fin 2) * 1024 + 1 * k.val = k.val; rw [e01]; omega
  · unfold iblk0
    rw [View.read_apply]
    show V c main_v7 (((cfg0.win 3).blk t).view.emb (ix2 k (j 1))) = V c main_v7 _
    refine congrArg (V c main_v7) (funext fun a => Fin.ext ?_)
    match a with
    | ⟨0, _⟩ => show win0_3.index t (0 : Fin 2) * 1024 + 1 * k.val = k.val; rw [e30]; omega
    | ⟨1, _⟩ => show win0_3.index t (1 : Fin 2) * 1024 + 1 * (j 1).val = win0_6.index t (1 : Fin 2) * 1024 + 1 * (j 1).val; rw [e31, e61]

/-- An index of the array is in point t's block iff each coordinate is in the block's range on its axis. -/
theorem mem_blk6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v8_2).slice (win0_6.rect t)).set ↔ _
  rw [View.set_slice_whole, Rect.mem_set_unit]
  exact Iff.rfl

/-- Row p lies in the block of point p / 512, which is written back. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_6 _, ?_⟩
  rw [mem_blk6]
  obtain ⟨e00, e01, e10, e11, e20, e21, e30, e31, e40, e41, e50, e51, e60, e61⟩ := idx_facts ⟨(i 0).val / 512, by rw [hN]; omega⟩
  intro a
  match a with
  | ⟨0, _⟩ =>
    show win0_6.index _ (0 : Fin 2) * 512 ≤ (i 0).val ∧ (i 0).val < win0_6.index _ (0 : Fin 2) * 512 + 512
    rw [e60]; show (i 0).val / 512 * 512 ≤ (i 0).val ∧ (i 0).val < (i 0).val / 512 * 512 + 512; omega
  | ⟨1, _⟩ =>
    show win0_6.index _ (1 : Fin 2) * 1024 ≤ (i 1).val ∧ (i 1).val < win0_6.index _ (1 : Fin 2) * 1024 + 1024
    rw [e61]; omega

/-- The third projection's output array after the call is the product array of the input and the third weight. -/
theorem proj_arr6_fn (c : Dev nD) :
    (dat0 (F := Ideal) V c).arrAt 6 cfg0.N = projArr (V c (Pipeline.arrRef spec0 0)) (V c (Pipeline.arrRef spec0 3)) :=
  (dat0 (F := Ideal) V c).arrAt_eq_of_cover 6 (projArr (V c (Pipeline.arrRef spec0 0)) (V c (Pipeline.arrRef spec0 3)))
    (fun t _ => flushed6_eq V c t) cover6

/-- The same, entry by entry, the input and the weight named at their literal types. -/
theorem proj_arr6 (c : Dev nD) (X : S4096x1024.Idx → EReal) (W : S1024x1024.Idx → EReal)
    (hX : X = V c (Pipeline.arrRef spec0 0)) (hW : W = V c (Pipeline.arrRef spec0 3)) (p : Fin 4096) (d : Fin 1024) :
    (dat0 (F := Ideal) V c).arrAt 6 cfg0.N (ix2 p d) = ∑ k : Fin 1024, X (ix2 p k) * W (ix2 k d) := by
  subst hX hW
  exact congrFun (proj_arr6_fn V c) (ix2 p d)

/-- The same with the output array named too. -/
theorem proj_arr6_at (c : Dev nD) (X R : S4096x1024.Idx → EReal) (W : S1024x1024.Idx → EReal)
    (hX : X = V c (Pipeline.arrRef spec0 0)) (hW : W = V c (Pipeline.arrRef spec0 3))
    (hR : R = (dat0 (F := Ideal) V c).arrAt 6 cfg0.N) (p : Fin 4096) (d : Fin 1024) :
    R (ix2 p d) = ∑ k : Fin 1024, X (ix2 p k) * W (ix2 k d) := by
  subst hX hW hR
  exact congrFun (proj_arr6_fn V c) (ix2 p d)

variable (m : (ℓ : Loc nD τ sig) → Buf (Elt Ideal) ℓ) (ρ : Dev nD → PrngReg)

/-! ## The host lines before the call -/

/-- The first weight as the region finds it: the transposed first weight argument times the constant, narrowed. -/
theorem host_q_fn (c : Dev nD) :
    (V1 (F := Ideal) m ρ c main_v3 : S1024x1024.Idx → EReal)
      = truncf .bf16 (mulf (transpose S1024x1024 [1, 0] (m ((c.tc : Thread nD τ).loc main_arg1)) transposes_S1024x1024_S1024x1024_1_0)
          (broadcastInDim S1024x1024 ![] bcast_S_S1024x1024 (constant (F := Ideal) S_ .f32 0x3D000000#32))) bitsLt_bf16_f32 := by
  dsimp only [V1, W1, hostOps0]
  after_results

theorem host_k_fn (c : Dev nD) :
    (V1 (F := Ideal) m ρ c main_v5 : S1024x1024.Idx → EReal)
      = truncf (F := Ideal) .bf16 (transpose S1024x1024 [1, 0] (m ((c.tc : Thread nD τ).loc main_arg2)) transposes_S1024x1024_S1024x1024_1_0) bitsLt_bf16_f32 := by
  dsimp only [V1, W1, hostOps0]
  after_results

theorem host_v_fn (c : Dev nD) :
    (V1 (F := Ideal) m ρ c main_v7 : S1024x1024.Idx → EReal)
      = truncf (F := Ideal) .bf16 (transpose S1024x1024 [1, 0] (m ((c.tc : Thread nD τ).loc main_arg3)) transposes_S1024x1024_S1024x1024_1_0) bitsLt_bf16_f32 := by
  dsimp only [V1, W1, hostOps0]
  after_results

theorem host_x (c : Dev nD) : V1 (F := Ideal) m ρ c main_arg0 = m ((c.tc : Thread nD τ).loc main_arg0) := by
  dsimp only [V1, W1, hostOps0]
  after_results

theorem host_q (c : Dev nD) (A Wt : S1024x1024.Idx → EReal) (hA : A = m ((c.tc : Thread nD τ).loc main_arg1))
    (hWt : Wt = V1 (F := Ideal) m ρ c main_v3) (k d : Fin 1024) :
    Wt (ix2 k d) = A (ix2 d k) * Ideal.ofBits .f32 0x3D000000#32 := by
  subst hA hWt
  rw [host_q_fn, truncf_apply, mulf_apply, transpose_ix2_apply, broadcastInDim_scalar_apply, constant_apply]

theorem host_k (c : Dev nD) (A Wt : S1024x1024.Idx → EReal) (hA : A = m ((c.tc : Thread nD τ).loc main_arg2))
    (hWt : Wt = V1 (F := Ideal) m ρ c main_v5) (k d : Fin 1024) :
    Wt (ix2 k d) = A (ix2 d k) := by
  subst hA hWt
  rw [host_k_fn, truncf_apply, transpose_ix2_apply]

theorem host_v (c : Dev nD) (A Wt : S1024x1024.Idx → EReal) (hA : A = m ((c.tc : Thread nD τ).loc main_arg3))
    (hWt : Wt = V1 (F := Ideal) m ρ c main_v7) (k d : Fin 1024) :
    Wt (ix2 k d) = A (ix2 d k) := by
  subst hA hWt
  rw [host_v_fn, truncf_apply, transpose_ix2_apply]

end Cert.KernelIdeal.Proj

end
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.AttnCompose.lean ====
/-
  The blockwise row of attention is the real-valued attention.

  Query row `p` is scored against the 4096 key rows in eight blocks of 512, block `b` holding the key rows
  `512 b + j`; the scores carry the factor `1/32` folded into the query weights. On these finite scores and
  value projections the blockwise form is the real quotient of the two double sums over the blocks; a score with
  `1/32` folded in is the score divided by `32` afterwards; and a double sum over eight blocks of 512 consecutive
  rows is the sum over all 4096 rows. What is left is the definition of the attention entry.
-/
import Mathlib
import proofs.«179623_j35940286333005_2_alg».proof.Proof.OnlineSoftmax
import proofs.«179623_j35940286333005_2_alg».proof.Proof.RowAt
import proofs.«179623_j35940286333005_2_alg».proof.Proof.LibBlockSum

noncomputable section

open scoped BigOperators

namespace Cert.OnlineSoftmax

open Cert.Attn

/-- The blockwise form over the eight blocks of 512 key rows, on the scaled scores of query row `p` and the value
    projections in column `o`, from any finite starting maximum, is entry `(p, o)` of the attention output. -/
theorem online_attn (m0 : ℝ) (x : Fin 4096 → Fin 1024 → ℝ) (wq wk wv : Fin 1024 → Fin 1024 → ℝ) (p : Fin 4096) (o : Fin 1024) :
    onlineRow (m0 : EReal)
      (fun b j => ((∑ d, (∑ i, x p i * (wq d i * (1 / 32))) * proj x wk (rowAt b j) d : ℝ) : EReal))
      (fun b j => ((proj x wv (rowAt b j) o : ℝ) : EReal)) 8
    = ((attn x wq wk wv p o : ℝ) : EReal) := by
  -- the weighted sum, block by block, is the weighted sum over all rows
  have hnum : ∑ b ∈ Finset.range 8, ∑ j : Fin 512,
        Real.exp (score x wq wk p (rowAt b j)) * proj x wv (rowAt b j) o
      = ∑ i : Fin 4096, Real.exp (score x wq wk p i) * proj x wv i o :=
    Cert.LibBlockSum.sum_range_blocks 8 512 4096 (by norm_num) (by norm_num)
      (fun i => Real.exp (score x wq wk p i) * proj x wv i o)
  -- and so is the normaliser
  have hden : ∑ b ∈ Finset.range 8, ∑ j : Fin 512, Real.exp (score x wq wk p (rowAt b j))
      = ∑ i : Fin 4096, Real.exp (score x wq wk p i) :=
    Cert.LibBlockSum.sum_range_blocks 8 512 4096 (by norm_num) (by norm_num)
      (fun i => Real.exp (score x wq wk p i))
  refine (onlineRow_coe (n := 512) (by norm_num) m0
    (fun b j => ∑ d, (∑ i, x p i * (wq d i * (1 / 32))) * proj x wk (rowAt b j) d)
    (fun b j => proj x wv (rowAt b j) o) 8 (by norm_num)).trans ?_
  simp only [score_scaled]
  unfold attn
  rw [hnum, hden]

end Cert.OnlineSoftmax

end
-- ==== Proof.AttnEntry.lean ====
/-
  The attention entry from extended-real inputs that are finite.

  The arrays arrive as extended reals, each entry known to be the reading of a real, and the scale as the reading
  of `1/32`. Entry by entry a product of readings is the reading of the product and a finite sum of readings is
  the reading of the sum, so the scaled scores and the value projections are readings of the real ones, and the
  blockwise row on them is the real-valued attention entry.
-/
import Mathlib
import proofs.«179623_j35940286333005_2_alg».proof.Proof.AttnCompose

noncomputable section

open scoped BigOperators

namespace Cert.OnlineSoftmax

open Cert.Attn

/-- The blockwise row over the eight blocks of 512 key rows, computed in the extended reals from inputs that are
    readings of reals (starting maximum, scale `1/32`, activations and the three weight arrays), is the reading of
    entry `(p, o)` of the real-valued attention output. -/
theorem kernel_entry (M0 c : EReal) (hM : ∃ r : ℝ, M0 = (r : EReal)) (hc : c = ((1 / 32 : ℝ) : EReal))
    (X : Fin 4096 → Fin 1024 → EReal) (Wq Wk Wv : Fin 1024 → Fin 1024 → EReal)
    (x : Fin 4096 → Fin 1024 → ℝ) (wq wk wv : Fin 1024 → Fin 1024 → ℝ)
    (hx : ∀ p i, X p i = (x p i : EReal)) (hq : ∀ d i, Wq d i = (wq d i : EReal)) (hk : ∀ d i, Wk d i = (wk d i : EReal)) (hv : ∀ d i, Wv d i = (wv d i : EReal))
    (p : Fin 4096) (o : Fin 1024) :
    onlineRow M0
      (fun b j => ∑ d : Fin 1024, (∑ k : Fin 1024, X p k * (Wq d k * c)) * (∑ k : Fin 1024, X (rowAt b j) k * Wk d k))
      (fun b j => ∑ k : Fin 1024, X (rowAt b j) k * Wv o k) 8
    = ((attn x wq wk wv p o : ℝ) : EReal) := by
  obtain ⟨r, rfl⟩ := hM
  subst hc
  -- the scaled scores are readings of the real scaled scores
  have hs : (fun (b : ℕ) (j : Fin 512) => ∑ d : Fin 1024,
        (∑ k : Fin 1024, X p k * (Wq d k * ((1 / 32 : ℝ) : EReal))) * (∑ k : Fin 1024, X (rowAt b j) k * Wk d k))
      = (fun b j => ((∑ d, (∑ i, x p i * (wq d i * (1 / 32))) * proj x wk (rowAt b j) d : ℝ) : EReal)) := by
    funext b j
    simp only [hx, hq, hk, ← EReal.coe_mul, ← coe_sum, proj]
  -- the value projections are readings of the real value projections
  have hw : (fun (b : ℕ) (j : Fin 512) => ∑ k : Fin 1024, X (rowAt b j) k * Wv o k)
      = (fun b j => ((proj x wv (rowAt b j) o : ℝ) : EReal)) := by
    funext b j
    simp only [hx, hv, ← EReal.coe_mul, ← coe_sum, proj]
  rw [hs, hw]
  exact online_attn r x wq wk wv p o

end Cert.OnlineSoftmax

end
-- ==== Proof.KernelValue.lean ====
/-
  The kernel's result, entry by entry.

  The last boundary's contents at the result buffer are the attention call's output array; its entry `(p, o)` is the
  blockwise softmax-weighted average over the arrays the call was entered with — the three projection arrays the first
  call left — whose entries are sums over `k` of the input's row against a weight column; the weight arrays the first
  call was entered with are the argument weights transposed, the query weights scaled by 1/32. With the arguments'
  entries real numbers this is the real attention entry.
-/
import proofs.«179623_j35940286333005_2_alg».proof.Proof.KernelRun
import proofs.«179623_j35940286333005_2_alg».proof.Proof.AttnArray
import proofs.«179623_j35940286333005_2_alg».proof.Proof.ProjArray
import proofs.«179623_j35940286333005_2_alg».proof.Proof.AttnEntry
import proofs.«179623_j35940286333005_2_alg».proof.Proof.Consts
import Idealize.ShloMosaic.Lib.ValueIdx

set_option maxRecDepth 16384

noncomputable section

open scoped BigOperators

namespace Cert.KernelIdeal.Whole

open Idealize.ShloMosaic Idealize.ShloMosaic.ValueIdx Idealize.ShloMosaic.TcCoe
open Idealize.SL Idealize.SL.Sem
open Cert.KernelIdeal Cert.KernelIdeal.Gen Cert.Attn

variable (m : (ℓ : Loc nD τ sig) → Buf (Elt Ideal) ℓ) (ρ : Dev nD → PrngReg)

/-- The attention call is entered with the projection call's three output arrays. -/
theorem entered_q (c : Dev nD) : V2 (F := Ideal) m ρ c (Pipeline.arrRef spec1 0) = (dat0 (V1 m ρ) c).arrAt 4 cfg0.N := W2_arr m ρ c 4
theorem entered_k (c : Dev nD) : V2 (F := Ideal) m ρ c (Pipeline.arrRef spec1 1) = (dat0 (V1 m ρ) c).arrAt 5 cfg0.N := W2_arr m ρ c 5
theorem entered_v (c : Dev nD) : V2 (F := Ideal) m ρ c (Pipeline.arrRef spec1 2) = (dat0 (V1 m ρ) c).arrAt 6 cfg0.N := W2_arr m ρ c 6

/-- Entry `(p, o)` of the result array is the real attention entry of the finite arguments. The arrays are named as
    functions of their indices: the four arguments `A0 … A3` as launched and the result `R` at the last boundary. -/
theorem result_entry
    (c : Dev nD) (A0 : (⟨2, ![4096, 1024]⟩ : Shape).Idx → EReal) (A1 A2 A3 : (⟨2, ![1024, 1024]⟩ : Shape).Idx → EReal)
    (hA0 : A0 = m ((c.tc : Thread nD τ).loc main_arg0)) (hA1 : A1 = m ((c.tc : Thread nD τ).loc main_arg1))
    (hA2 : A2 = m ((c.tc : Thread nD τ).loc main_arg2)) (hA3 : A3 = m ((c.tc : Thread nD τ).loc main_arg3))
    (R : (⟨2, ![4096, 1024]⟩ : Shape).Idx → EReal) (hR : R = W3 (F := Ideal) m ρ c (Proc.devRef .tc main_v9))
    (x : Fin 4096 → Fin 1024 → ℝ) (wq wk wv : Fin 1024 → Fin 1024 → ℝ)
    (hx : ∀ p i, A0 (ix2 p i) = (x p i : EReal)) (hq : ∀ d i, A1 (ix2 d i) = (wq d i : EReal))
    (hk : ∀ d i, A2 (ix2 d i) = (wk d i : EReal)) (hv : ∀ d i, A3 (ix2 d i) = (wv d i : EReal))
    (p : Fin 4096) (o : Fin 1024) :
    R (ix2 p o) = ((Cert.OnlineSoftmax.attn x wq wk wv p o : ℝ) : EReal) := by
  -- the arrays the two calls are entered with, named
  obtain ⟨Vq, hVq⟩ : ∃ Vq : (⟨2, ![4096, 1024]⟩ : Shape).Idx → EReal, Vq = V2 (F := Ideal) m ρ c (Pipeline.arrRef spec1 0) := ⟨_, rfl⟩
  obtain ⟨Vk, hVk⟩ : ∃ Vk : (⟨2, ![4096, 1024]⟩ : Shape).Idx → EReal, Vk = V2 (F := Ideal) m ρ c (Pipeline.arrRef spec1 1) := ⟨_, rfl⟩
  obtain ⟨Vv, hVv⟩ : ∃ Vv : (⟨2, ![4096, 1024]⟩ : Shape).Idx → EReal, Vv = V2 (F := Ideal) m ρ c (Pipeline.arrRef spec1 2) := ⟨_, rfl⟩
  obtain ⟨X, hX⟩ : ∃ X : (⟨2, ![4096, 1024]⟩ : Shape).Idx → EReal, X = V1 (F := Ideal) m ρ c (Pipeline.arrRef spec0 0) := ⟨_, rfl⟩
  obtain ⟨Wqt, hWqt⟩ : ∃ W : (⟨2, ![1024, 1024]⟩ : Shape).Idx → EReal, W = V1 (F := Ideal) m ρ c (Pipeline.arrRef spec0 1) := ⟨_, rfl⟩
  obtain ⟨Wkt, hWkt⟩ : ∃ W : (⟨2, ![1024, 1024]⟩ : Shape).Idx → EReal, W = V1 (F := Ideal) m ρ c (Pipeline.arrRef spec0 2) := ⟨_, rfl⟩
  obtain ⟨Wvt, hWvt⟩ : ∃ W : (⟨2, ![1024, 1024]⟩ : Shape).Idx → EReal, W = V1 (F := Ideal) m ρ c (Pipeline.arrRef spec0 3) := ⟨_, rfl⟩
  have eX : X = A0 := hX.trans ((Cert.KernelIdeal.Proj.host_x m ρ c).trans hA0.symm)
  have eQ : ∀ (P : Fin 4096) (d : Fin 1024), Vq (ix2 P d) = ∑ k : Fin 1024, A0 (ix2 P k) * (A1 (ix2 d k) * Ideal.ofBits .f32 0x3D000000#32) := by
    intro P d
    rw [Cert.KernelIdeal.Proj.proj_arr4_at (V1 m ρ) c X Vq Wqt hX hWqt (hVq.trans (entered_q m ρ c)) P d, eX]
    exact Finset.sum_congr rfl fun k _ => congrArg (A0 (ix2 P k) * ·) (Cert.KernelIdeal.Proj.host_q m ρ c A1 Wqt hA1 hWqt k d)
  have eK : ∀ (P : Fin 4096) (d : Fin 1024), Vk (ix2 P d) = ∑ k : Fin 1024, A0 (ix2 P k) * A2 (ix2 d k) := by
    intro P d
    rw [Cert.KernelIdeal.Proj.proj_arr5_at (V1 m ρ) c X Vk Wkt hX hWkt (hVk.trans (entered_k m ρ c)) P d, eX]
    exact Finset.sum_congr rfl fun k _ => congrArg (A0 (ix2 P k) * ·) (Cert.KernelIdeal.Proj.host_k m ρ c A2 Wkt hA2 hWkt k d)
  have eV : ∀ (P : Fin 4096) (d : Fin 1024), Vv (ix2 P d) = ∑ k : Fin 1024, A0 (ix2 P k) * A3 (ix2 d k) := by
    intro P d
    rw [Cert.KernelIdeal.Proj.proj_arr6_at (V1 m ρ) c X Vv Wvt hX hWvt (hVv.trans (entered_v m ρ c)) P d, eX]
    exact Finset.sum_congr rfl fun k _ => congrArg (A0 (ix2 P k) * ·) (Cert.KernelIdeal.Proj.host_v m ρ c A3 Wvt hA3 hWvt k d)
  rw [Cert.KernelIdeal.Attn.attn_arr_of (V2 m ρ) c Vq Vk Vv R hVq hVk hVv (hR.trans (W3_result m ρ c)) p o]
  simp only [eQ, eK, eV]
  exact Cert.OnlineSoftmax.kernel_entry _ _ Cert.Consts.ofBits_big_neg Cert.Consts.ofBits_inv32
    (fun P i => A0 (ix2 P i)) (fun d i => A1 (ix2 d i)) (fun d i => A2 (ix2 d i)) (fun d i => A3 (ix2 d i))
    x wq wk wv hx hq hk hv p o

end Cert.KernelIdeal.Whole

end
-- ==== Proof.RefSide1.lean ====
/-
  The reference program read at an index, first half: the three projections and the scores.

  Each projection stage is `x · wᵀ`: its entry `(p, d)` is the sum over `i` of `x p i * w d i` (the transpose swaps
  the weight's coordinates before the contraction). The score stage at `(p, j)` is the inner product of query row `p`
  with key row `j`, divided by `√1024 = 32`. On finite inputs both are the real numbers `proj` and `score`.
-/
import proofs.«179623_j35940286333005_2_alg».proof.Proof.Gen.ReferenceIdeal.Read
import proofs.«179623_j35940286333005_2_alg».proof.Proof.OnlineSoftmax
import proofs.«179623_j35940286333005_2_alg».proof.Proof.Consts

noncomputable section

open scoped BigOperators

namespace Cert.RefSide

open Cert.ReferenceIdeal Cert.ReferenceIdeal.Gen Cert.ReferenceIdeal.Read Idealize.ShloMosaic Idealize.ShloMosaic.ValueIdx
open Cert.OnlineSoftmax

/-- The query projection at `(p, d)`: the real `proj x w p d`. -/
theorem v1_apply (X : (⟨S4096x1024, .f32⟩ : BufTy).Contents (Elt Ideal)) (W : (⟨S1024x1024, .f32⟩ : BufTy).Contents (Elt Ideal))
    (x : Fin 4096 → Fin 1024 → ℝ) (w : Fin 1024 → Fin 1024 → ℝ)
    (hx : ∀ p i, X (ix2 p i) = (x p i : EReal)) (hw : ∀ d i, W (ix2 d i) = (w d i : EReal))
    (p : Fin 4096) (d : Fin 1024) :
    val_main_v1 (F := Ideal) X W (ix2 p d) = ((proj x w p d : ℝ) : EReal) := by
  have el : ∀ k : Fin 1024, lidx_main_v1 (ix2 p d) k = ix2 p k := fun k =>
    funext fun a => Fin.ext (by match a with | ⟨0, _⟩ => rfl | ⟨1, _⟩ => rfl)
  have er : ∀ k : Fin 1024, idx_main_v0 (ridx_main_v1 (ix2 p d) k) = ix2 d k := fun k =>
    funext fun a => Fin.ext (by match a with | ⟨0, _⟩ => rfl | ⟨1, _⟩ => rfl)
  rw [val_main_v1_apply]
  unfold proj
  rw [coe_sum]
  refine Finset.sum_congr rfl fun k _ => ?_
  rw [val_main_v0_apply, el, er, hx, hw, EReal.coe_mul]

/-- The key projection is the same operation on the key weights. -/
theorem v3_apply (X : (⟨S4096x1024, .f32⟩ : BufTy).Contents (Elt Ideal)) (W : (⟨S1024x1024, .f32⟩ : BufTy).Contents (Elt Ideal))
    (x : Fin 4096 → Fin 1024 → ℝ) (w : Fin 1024 → Fin 1024 → ℝ)
    (hx : ∀ p i, X (ix2 p i) = (x p i : EReal)) (hw : ∀ d i, W (ix2 d i) = (w d i : EReal))
    (p : Fin 4096) (d : Fin 1024) :
    val_main_v3 (F := Ideal) X W (ix2 p d) = ((proj x w p d : ℝ) : EReal) :=
  v1_apply X W x w hx hw p d

/-- The value projection is the same operation on the value weights. -/
theorem v5_apply (X : (⟨S4096x1024, .f32⟩ : BufTy).Contents (Elt Ideal)) (W : (⟨S1024x1024, .f32⟩ : BufTy).Contents (Elt Ideal))
    (x : Fin 4096 → Fin 1024 → ℝ) (w : Fin 1024 → Fin 1024 → ℝ)
    (hx : ∀ p i, X (ix2 p i) = (x p i : EReal)) (hw : ∀ d i, W (ix2 d i) = (w d i : EReal))
    (p : Fin 4096) (d : Fin 1024) :
    val_main_v5 (F := Ideal) X W (ix2 p d) = ((proj x w p d : ℝ) : EReal) :=
  v1_apply X W x w hx hw p d

/-- The divisor stage: `√1024 = 32` at every index. -/
theorem v9_apply (i : S4096x4096.Idx) : val_main_v9 (F := Ideal) i = ((32 : ℝ) : EReal) := by
  have h32 : Real.sqrt 1024 = 32 := by
    rw [show (1024 : ℝ) = 32 ^ 2 by norm_num]
    exact Real.sqrt_sq (by norm_num)
  rw [val_main_v9_apply, val_main_v8_apply, val_main_cst_apply, Ideal.ofBits_def, Ideal.hostUnary_sqrt_def,
    Cert.Consts.ofBits_1024, Ideal.sqrt_coe, if_neg (by norm_num), h32]

/-- The score stage at `(p, j)`: the real `score x wq wk p j`. -/
theorem v10_apply (X : (⟨S4096x1024, .f32⟩ : BufTy).Contents (Elt Ideal)) (Wq Wk : (⟨S1024x1024, .f32⟩ : BufTy).Contents (Elt Ideal))
    (x : Fin 4096 → Fin 1024 → ℝ) (wq wk : Fin 1024 → Fin 1024 → ℝ)
    (hx : ∀ p i, X (ix2 p i) = (x p i : EReal)) (hq : ∀ d i, Wq (ix2 d i) = (wq d i : EReal))
    (hk : ∀ d i, Wk (ix2 d i) = (wk d i : EReal)) (p j : Fin 4096) :
    val_main_v10 (F := Ideal) X Wq Wk (ix2 p j) = ((score x wq wk p j : ℝ) : EReal) := by
  have el : ∀ k : Fin 1024, lidx_main_v7 (ix2 p j) k = ix2 p k := fun k =>
    funext fun a => Fin.ext (by match a with | ⟨0, _⟩ => rfl | ⟨1, _⟩ => rfl)
  have er : ∀ k : Fin 1024, idx_main_v6 (ridx_main_v7 (ix2 p j) k) = ix2 j k := fun k =>
    funext fun a => Fin.ext (by match a with | ⟨0, _⟩ => rfl | ⟨1, _⟩ => rfl)
  have h7 : val_main_v7 (F := Ideal) X Wq Wk (ix2 p j) = ((∑ d, proj x wq p d * proj x wk j d : ℝ) : EReal) := by
    rw [val_main_v7_apply, coe_sum]
    refine Finset.sum_congr rfl fun k _ => ?_
    rw [val_main_v6_apply, el, er, v1_apply X Wq x wq hx hq, v3_apply X Wk x wk hx hk, EReal.coe_mul]
  rw [val_main_v10_apply, h7, v9_apply, Ideal.hostDivf_def, Ideal.div_coe (by norm_num : (32 : ℝ) ≠ 0), ← EReal.coe_mul]
  unfold score
  rw [mul_one_div]

end Cert.RefSide

end
-- ==== Proof.RefSide2.lean ====
/-
  The reference program read at an index, second half: the softmax of a row of scores and its average of the values.

  Row `p` of the score stage is shifted by its maximum (the fold of `max` from `-∞`, joined once more with `-∞`),
  exponentiated, divided entrywise by the normaliser `0 + ∑ exp`, and contracted against column `o` of the value
  projection: exactly the direct form `refRow` of the scores' row and the values' column.
-/
import proofs.«179623_j35940286333005_2_alg».proof.Proof.Gen.ReferenceIdeal.Read
import proofs.«179623_j35940286333005_2_alg».proof.Proof.OnlineSoftmax
import proofs.«179623_j35940286333005_2_alg».proof.Proof.Consts
import proofs.«179623_j35940286333005_2_alg».proof.Proof.LibRowReduce

noncomputable section

open scoped BigOperators

namespace Cert.RefSide

open Cert.ReferenceIdeal Cert.ReferenceIdeal.Gen Cert.ReferenceIdeal.Read Idealize.ShloMosaic Idealize.ShloMosaic.ValueIdx
open Cert.OnlineSoftmax

variable (X : (⟨S4096x1024, .f32⟩ : BufTy).Contents (Elt Ideal)) (Wq Wk Wv : (⟨S1024x1024, .f32⟩ : BufTy).Contents (Elt Ideal))

/-- The maximum of row `p` of the scores, as the reference computes it. -/
def rowMax (p : Fin 4096) : EReal :=
  max ⊥ (Finset.univ.fold max ⊥ (fun j : Fin 4096 => val_main_v10 (F := Ideal) X Wq Wk (ix2 p j)))

/-- The row-maximum stage at row `p`. -/
theorem v13_apply (p : Fin 4096) : val_main_v13 (F := Ideal) X Wq Wk (ix1 p) = rowMax X Wq Wk p := by
  have h11 : val_main_v11 (F := Ideal) X Wq Wk (ix1 p)
      = Finset.univ.fold max ⊥ (fun j : Fin 4096 => val_main_v10 (F := Ideal) X Wq Wk (ix2 p j)) := by
    unfold val_main_v11
    generalize val_main_v10 (F := Ideal) X Wq Wk = y
    rw [Cert.LibRowReduce.hostReduce_max_row y (val_main_cst_0 (F := Ideal)) reducesTo_S4096x4096_S4096_d1 (by decide) h_S_ p,
      val_main_cst_0_apply, Ideal.ofBits_def, Cert.Consts.ofBits_neg_inf]
  rw [val_main_v13_apply, val_main_v12_apply, val_main_cst_1_apply, h11, Ideal.ofBits_def, Cert.Consts.ofBits_neg_inf,
    Ideal.maximumf_def]
  rfl

/-- The exponential stage at `(p, k)`: the score shifted by the row's maximum, exponentiated. -/
theorem v17_apply (p k : Fin 4096) :
    val_main_v17 (F := Ideal) X Wq Wk (ix2 p k)
      = Ideal.exp (val_main_v10 (F := Ideal) X Wq Wk (ix2 p k) - rowMax X Wq Wk p) := by
  have e : idx_main_v14 (idx_main_v15 (ix2 p k)) = ix1 p :=
    funext fun a => Fin.ext (by match a with | ⟨0, _⟩ => rfl)
  rw [val_main_v17_apply, val_main_v16_apply, val_main_v15_apply, val_main_v14_apply, e, v13_apply,
    Ideal.hostUnary_exp_def, Ideal.subf_def]

/-- The normaliser stage at row `p`: zero plus the sum of the row's exponentials. -/
theorem v18_apply (p : Fin 4096) :
    val_main_v18 (F := Ideal) X Wq Wk (ix1 p)
      = 0 + ∑ k : Fin 4096, Ideal.exp (val_main_v10 (F := Ideal) X Wq Wk (ix2 p k) - rowMax X Wq Wk p) := by
  have e : ∀ k : Fin 4096, idx_main_v18 (ix1 p) k = ix2 p k := fun k =>
    funext fun a => Fin.ext (by match a with | ⟨0, _⟩ => rfl | ⟨1, _⟩ => rfl)
  rw [val_main_v18_apply, val_main_cst_2_apply, Ideal.ofBits_def, Cert.Consts.ofBits_zero]
  refine congrArg (0 + ·) (Finset.sum_congr rfl fun k _ => ?_)
  rw [e, v17_apply]

/-- The weight stage at `(p, k)`: the exponential over the row's normaliser. -/
theorem v21_apply (p k : Fin 4096) :
    val_main_v21 (F := Ideal) X Wq Wk (ix2 p k)
      = Ideal.div (Ideal.exp (val_main_v10 (F := Ideal) X Wq Wk (ix2 p k) - rowMax X Wq Wk p))
          (0 + ∑ k' : Fin 4096, Ideal.exp (val_main_v10 (F := Ideal) X Wq Wk (ix2 p k') - rowMax X Wq Wk p)) := by
  have e : idx_main_v19 (idx_main_v20 (ix2 p k)) = ix1 p :=
    funext fun a => Fin.ext (by match a with | ⟨0, _⟩ => rfl)
  rw [val_main_v21_apply, val_main_v20_apply, val_main_v19_apply, e, v18_apply, v17_apply, Ideal.hostDivf_def]

/-- The output stage at `(p, o)` is the direct softmax average of row `p` of the scores against column `o` of the
    value projection. -/
theorem v22_refRow (p : Fin 4096) (o : Fin 1024) :
    val_main_v22 (F := Ideal) X Wq Wk Wv (ix2 p o)
      = refRow (fun j : Fin 4096 => val_main_v10 (F := Ideal) X Wq Wk (ix2 p j))
          (fun j : Fin 4096 => val_main_v5 (F := Ideal) X Wv (ix2 j o)) := by
  have el : ∀ k : Fin 4096, lidx_main_v22 (ix2 p o) k = ix2 p k := fun k =>
    funext fun a => Fin.ext (by match a with | ⟨0, _⟩ => rfl | ⟨1, _⟩ => rfl)
  have er : ∀ k : Fin 4096, ridx_main_v22 (ix2 p o) k = ix2 k o := fun k =>
    funext fun a => Fin.ext (by match a with | ⟨0, _⟩ => rfl | ⟨1, _⟩ => rfl)
  rw [val_main_v22_apply]
  unfold refRow
  refine Finset.sum_congr rfl fun k _ => ?_
  rw [el, er, v21_apply]
  rfl

end Cert.RefSide

end
-- ==== Proof.RefSide.lean ====
/-
  The reference program is plain attention: its output at `(p, o)`, on finite inputs, is the real number `attn`.

  The output stage is the direct softmax average (`refRow`) of row `p` of the scores against column `o` of the value
  projection; the scores are the reals `score`, the value projection the reals `proj`, and on finite scores and values
  the direct form is the quotient `(∑ exp z · v) / (∑ exp z)`.
-/
import proofs.«179623_j35940286333005_2_alg».proof.Proof.RefSide1
import proofs.«179623_j35940286333005_2_alg».proof.Proof.RefSide2

noncomputable section

open scoped BigOperators

namespace Cert.RefSide

open Idealize.ShloMosaic Idealize.ShloMosaic.ValueIdx

/-- The reference's output at `(p, o)` on finite inputs is the attention entry over the reals. -/
theorem ref_apply (X : (⟨Cert.ReferenceIdeal.S4096x1024, .f32⟩ : BufTy).Contents (Elt Ideal))
    (Wq Wk Wv : (⟨Cert.ReferenceIdeal.S1024x1024, .f32⟩ : BufTy).Contents (Elt Ideal))
    (x : Fin 4096 → Fin 1024 → ℝ) (wq wk wv : Fin 1024 → Fin 1024 → ℝ)
    (hx : ∀ p i, X (ix2 p i) = (x p i : EReal)) (hq : ∀ d i, Wq (ix2 d i) = (wq d i : EReal))
    (hk : ∀ d i, Wk (ix2 d i) = (wk d i : EReal)) (hv : ∀ d i, Wv (ix2 d i) = (wv d i : EReal))
    (p : Fin 4096) (o : Fin 1024) :
    Cert.ReferenceIdeal.Read.val_main_v22 (F := Ideal) X Wq Wk Wv (ix2 p o)
      = ((Cert.OnlineSoftmax.attn x wq wk wv p o : ℝ) : EReal) := by
  have hz : (fun j : Fin 4096 => Cert.ReferenceIdeal.Read.val_main_v10 (F := Ideal) X Wq Wk (ix2 p j))
      = fun j => ((Cert.OnlineSoftmax.score x wq wk p j : ℝ) : EReal) :=
    funext fun j => v10_apply X Wq Wk x wq wk hx hq hk p j
  have hw : (fun j : Fin 4096 => Cert.ReferenceIdeal.Read.val_main_v5 (F := Ideal) X Wv (ix2 j o))
      = fun j => ((Cert.OnlineSoftmax.proj x wv j o : ℝ) : EReal) :=
    funext fun j => v5_apply X Wv x wv hx hv j o
  rw [v22_refRow, hz, hw, Cert.OnlineSoftmax.refRow_coe (by norm_num : 0 < 4096)]
  rfl

end Cert.RefSide

end
-- ==== Proof.FiniteArgs.lean ====
import proofs.«179623_j35940286333005_2_alg».proof.Defs
import Idealize.ShloMosaic.Lib.ReduceAll
import Idealize.ShloMosaic.Lib.IdealHost

/-!
# The precondition makes every input entry a real number

The precondition says that, for each of the four argument arrays, `|a| < +∞` holds at every entry (the
conjunction over all entries, and the conjunction of the four). On extended reals `|x| = max x (-x)`, which is
`+∞` at both infinities; so `|x| < +∞` leaves exactly the real numbers.
-/

noncomputable section

namespace Cert.FiniteArgs

open Idealize.ShloMosaic Idealize.ShloMosaic.ValueIdx Idealize.SL.Sem

/-- The scalar shape has one index. -/
instance : Subsingleton Cert.Pre_finite_inputs.S_.Idx := ⟨fun a b => funext fun d => d.elim0⟩

/-- The f32 pattern `0x7F800000` is `+∞`. -/
theorem ofBits_inf_f32 : Ideal.ofBits .f32 0x7F800000#32 = (⊤ : EReal) := by simp [Ideal.ofBits, Ideal.ieee]

/-- An extended real `x` with `max x (-x) < +∞` is a real: at `x = ⊤` the maximum is `⊤`, and at `x = ⊥` it is
    `-⊥ = ⊤`. -/
theorem real_of_abs_lt_top (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [ofBits_inf_f32] at h
  induction x using EReal.rec with
  | bot =>
    exfalso
    have h' : Ideal.cmp .olt (max (⊥ : EReal) (-⊥)) ⊤ = 1#1 := h
    revert h'; simp [Ideal.cmp]
  | coe r => exact ⟨r, rfl⟩
  | top =>
    exfalso
    have h' : Ideal.cmp .olt (max (⊤ : EReal) (-⊤)) ⊤ = 1#1 := h
    revert h'; simp [Ideal.cmp]

/-- One array: if the conjunction over all entries of `|a| < +∞` is true, every entry of `a` is a real. -/
theorem real_of_all_finite {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (h : Host.reduce IntOp.andi
          (cmpf .olt (Host.absf a)
            (broadcastInDim S ![] hb (constant (F := Ideal) Cert.Pre_finite_inputs.S_ .f32 0x7F800000#32)))
          init hr hu ix0 = 1#1)
    (i : S.Idx) : ∃ r : ℝ, a i = (r : EReal) := by
  have e := Host.reduce_andi_all _ init hr hu ix0 h i
  rw [cmpf_apply, broadcastInDim_scalar_apply, constant_apply] at e
  exact real_of_abs_lt_top (a i) e

/-- Under the precondition, on every device each of the four argument arrays is the coercion of an array of real
    numbers: the four-fold conjunction is split, and each conjunct is read at every index. -/
theorem reals_of_pre [hP : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
      (∃ x : Fin 4096 → Fin 1024 → ℝ, ∀ p i, m ((c.tc : Thread Cert.KernelIdeal.nD Cert.KernelIdeal.τ).loc Cert.KernelIdeal.main_arg0) (ix2 p i) = (x p i : EReal))
      ∧ (∃ wq : Fin 1024 → Fin 1024 → ℝ, ∀ d i, m ((c.tc : Thread Cert.KernelIdeal.nD Cert.KernelIdeal.τ).loc Cert.KernelIdeal.main_arg1) (ix2 d i) = (wq d i : EReal))
      ∧ (∃ wk : Fin 1024 → Fin 1024 → ℝ, ∀ d i, m ((c.tc : Thread Cert.KernelIdeal.nD Cert.KernelIdeal.τ).loc Cert.KernelIdeal.main_arg2) (ix2 d i) = (wk d i : EReal))
      ∧ (∃ wv : Fin 1024 → Fin 1024 → ℝ, ∀ d i, m ((c.tc : Thread Cert.KernelIdeal.nD Cert.KernelIdeal.τ).loc Cert.KernelIdeal.main_arg3) (ix2 d i) = (wv d i : EReal)) := by
  have h := congrFun (hpre c) ValueIdx.ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, h1⟩ := IntOp.andi_eq_one.1 h01
  have r0 := real_of_all_finite _ _ _ _ _ h0
  have r1 := real_of_all_finite _ _ _ _ _ h1
  have r2 := real_of_all_finite _ _ _ _ _ h2
  have r3 := real_of_all_finite _ _ _ _ _ h3
  choose x hx using r0
  choose wq hwq using r1
  choose wk hwk using r2
  choose wv hwv using r3
  exact ⟨⟨fun p i => x (ix2 p i), fun p i => hx (ix2 p i)⟩, ⟨fun d i => wq (ix2 d i), fun d i => hwq (ix2 d i)⟩,
    ⟨fun d i => wk (ix2 d i), fun d i => hwk (ix2 d i)⟩, ⟨fun d i => wv (ix2 d i), fun d i => hwv (ix2 d i)⟩⟩

end Cert.FiniteArgs
-- ==== Proof.lean ====
/-
  Flash attention against plain attention, on the extended reals.

  The kernel computes `softmax (q kᵀ) v` for `q = x (Wqᵀ / 32)`, `k = x Wkᵀ`, `v = x Wvᵀ` in two calls: the three
  projections, then, for each block of 512 query rows, a walk over the 4096 key and value rows in eight blocks of 512
  that keeps a running row maximum (started at a large negative finite number), a running normaliser and a running
  weighted sum, rescaling the last two whenever the maximum grows, and divides once at the end. The reference computes
  `softmax (q kᵀ / √1024) v` directly: row maxima from −∞, exponentials of the shifted scores, their row sums, the
  quotient, the product with `v`.

  With every input finite all these quantities are real numbers, and both programs' entry `(p, o)` is
  `(∑ⱼ exp (sₚⱼ) · vⱼₒ) / (∑ⱼ exp (sₚⱼ))` with `sₚⱼ = ⟨qₚ, kⱼ⟩ / 32`: a common shift of a row's scores cancels between
  numerator and denominator (so neither the reference's true maximum nor the kernel's running one, whatever finite value it
  started from, changes the quotient); the blockwise triple holds after each block the sums over the blocks seen so far
  shifted by the current maximum; the factor `1/32 = 1/√1024` moves from the query weights to the scores by
  distributivity, which is where finiteness is used; and a change of float format is the identity here.

  The three frames are the programs' generated runs. The kernel's idealization rewrote nothing, so `preserves` is trivial.
-/
import proofs.«179623_j35940286333005_2_alg».proof.Defs
import proofs.«179623_j35940286333005_2_alg».proof.Proof.Gen.Kernel
import proofs.«179623_j35940286333005_2_alg».proof.Proof.Gen.Kernel.Frame
import proofs.«179623_j35940286333005_2_alg».proof.Proof.Gen.KernelIdeal
import proofs.«179623_j35940286333005_2_alg».proof.Proof.Gen.KernelIdeal.Frame
import proofs.«179623_j35940286333005_2_alg».proof.Proof.Gen.ReferenceIdeal
import proofs.«179623_j35940286333005_2_alg».proof.Proof.Gen.Pre_finite_inputs
import proofs.«179623_j35940286333005_2_alg».proof.Proof.Gen.ReferenceIdeal.Run
import proofs.«179623_j35940286333005_2_alg».proof.Proof.Gen.ReferenceIdeal.Read
import proofs.«179623_j35940286333005_2_alg».proof.Proof.KernelRun
import proofs.«179623_j35940286333005_2_alg».proof.Proof.KernelValue
import proofs.«179623_j35940286333005_2_alg».proof.Proof.RefSide
import proofs.«179623_j35940286333005_2_alg».proof.Proof.FiniteArgs
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array holding, at every entry `(p, o)`, the real softmax-weighted average
    `attn x wq wk wv p o` of the finite inputs. -/
theorem algebraic : Cert.algebraic_KernelIdeal_ReferenceIdeal := by
  intro m ρ m' ρ' hpre hagree
  refine ⟨fun c => Cert.KernelIdeal.Gen.W3 (F := Ideal) m ρ c (Proc.devRef .tc Cert.KernelIdeal.main_v9),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨⟨x, hx⟩, ⟨wq, hq⟩, ⟨wk, hk⟩, ⟨wv, hv⟩⟩ := Cert.FiniteArgs.reals_of_pre m hpre c
  rw [Cert.ReferenceIdeal.Read.val_main_v22_eq, (hagree c).1, (hagree c).2.1, (hagree c).2.2.1, (hagree c).2.2.2]
  funext i
  obtain ⟨p, o, rfl⟩ : ∃ (p : Fin 4096) (o : Fin 1024), i = ix2 p o := ⟨i 0, i 1, eq_ix2 i⟩
  rw [Cert.RefSide.ref_apply _ _ _ _ x wq wk wv hx hq hk hv p o]
  exact (Cert.KernelIdeal.Whole.result_entry m ρ c _ _ _ _ rfl rfl rfl rfl _ rfl x wq wk wv hx hq hk hv p o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
